-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S100000x128 .f32) (main_arg1 : IVec S2x800000 32) (main_arg2 : FVec F S128x256 .f32) (main_arg3 : FVec F S256 .f32) (main_arg4 : FVec F S256x256 .f32) (main_arg5 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S100000x256 : Shape := ⟨2, ![100000, 256]⟩
abbrev S4000x128 : Shape := ⟨2, ![4000, 128]⟩
abbrev S4000x1 : Shape := ⟨2, ![4000, 1]⟩
abbrev S4000x256 : Shape := ⟨2, ![4000, 256]⟩
abbrev S800000x256 : Shape := ⟨2, ![800000, 256]⟩
abbrev S1x256 : Shape := ⟨2, ![1, 256]⟩
abbrev S2000x256 : Shape := ⟨2, ![2000, 256]⟩
abbrev S2000x1 : Shape := ⟨2, ![2000, 1]⟩

abbrev nBuf : Space → Nat
  | .hbm => 68
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S100000, .f32⟩
  | .hbm, ⟨14, _⟩ => ⟨S800000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x256, .f32⟩
  | .hbm, ⟨29, _⟩ => ⟨S100000x256, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x256, .f32⟩
  | .hbm, ⟨39, _⟩ => ⟨S_, .f32⟩
  | .hbm, ⟨40, _⟩ => ⟨S100000x256, .f32⟩
  | .hbm, ⟨41, _⟩ => ⟨S800000x1, .i32⟩
  | .hbm, ⟨42, _⟩ => ⟨S100000x256, .f32⟩
  | .hbm, ⟨43, _⟩ => ⟨S1x256, .f32⟩
  | .hbm, ⟨44, _⟩ => ⟨S100000x256, .f32⟩
  | .hbm, ⟨45, _⟩ => ⟨S100000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S100000x256, .f32⟩
  | .hbm, ⟨57, _⟩ => ⟨S800000x1, .i32⟩
  | .hbm, ⟨58, _⟩ => ⟨S100000x256, .f32⟩
  | .hbm, ⟨59, _⟩ => ⟨S100000x256, .f32⟩
  | .hbm, ⟨60, _⟩ => ⟨S100000x256, .f32⟩
  | .hbm, ⟨61, _⟩ => ⟨S100000x1, .f32⟩
  | .hbm, ⟨62, _⟩ => ⟨S100000x256, .f32⟩
  | .hbm, ⟨63, _⟩ => ⟨S100000x256, .f32⟩
  | .hbm, ⟨64, _⟩ => ⟨S100000x256, .f32⟩
  | .hbm, ⟨65, _⟩ => ⟨S1x256, .f32⟩
  | .hbm, ⟨66, _⟩ => ⟨S100000x256, .f32⟩
  | .hbm, ⟨67, _⟩ => ⟨S100000x256, .f32⟩
  | .local _ .vmem, ⟨0, _⟩ => ⟨S4000x128, .f32⟩
  | .local _ .vmem, ⟨1, _⟩ => ⟨S4000x128, .f32⟩
  | .local _ .vmem, ⟨2, _⟩ => ⟨S128x256, .f32⟩
  | .local _ .vmem, ⟨3, _⟩ => ⟨S4000x1, .f32⟩
  | .local _ .vmem, ⟨4, _⟩ => ⟨S4000x1, .f32⟩
  | .local _ .vmem, ⟨5, _⟩ => ⟨S4000x256, .f32⟩
  | .local _ .vmem, ⟨6, _⟩ => ⟨S4000x256, .f32⟩
  | .local _ .vmem, ⟨7, _⟩ => ⟨S4000x256, .f32⟩
  | .local _ .vmem, ⟨8, _⟩ => ⟨S4000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S1x256, .f32⟩
  | .local _ .vmem, ⟨16, _⟩ => ⟨S256x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S4000x256_S4000x256_0_0 : ∀ a, (![0, 0] : Fin 2 → Nat) a + S4000x256.size a ≤ S4000x256.size a
  h_S4000x256 : 0 < S4000x256.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x256 : S4000x1.Broadcasts S4000x256
  bcast_S_S100000x256 : S_.BroadcastsInDim S100000x256 (![] : Fin 0 → Fin S100000x256.rank)
  shapeCasts_S256_S1x256 : S256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  scatter_S100000_S800000x1_S800000_n_0_0_1_wf : ScatterDims.WF S100000 S800000x1 S800000 [] [0] [0] 1
  dot_S4000x128_S128x256_S4000x256_1_0_0_1_n_n_wf : DotDims.WF S4000x128 S128x256 S4000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S100000x256.size a
  hwx0_3 : ∀ i : grid0.Coords, EltTy.bits .f32 = 32 ∨ (Rect.block (s := S100000x256) S4000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x256.size a ≤ S100000x256.size a
  hwx0_4 : ∀ i : grid0.Coords, EltTy.bits .f32 = 32 ∨ (Rect.block (s := S100000x256) S4000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S100000x256.size a
  hwx1_5 : ∀ i : grid1.Coords, EltTy.bits .f32 = 32 ∨ (Rect.block (s := S100000x256) S2000x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S100000x256.size a
  hwx1_6 : ∀ i : grid1.Coords, EltTy.bits .f32 = 32 ∨ (Rect.block (s := S100000x256) S2000x256.size (cc1_transform_6 i) (hinb1_6 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S4000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S4000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15_0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27_0) S2000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v27_1) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x256 : Shape := ⟨2, ![100000, 256]⟩
abbrev S900000x256 : Shape := ⟨2, ![900000, 256]⟩
abbrev S1x256 : Shape := ⟨2, ![1, 256]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S900000, .i32⟩
  | .hbm, ⟨29, _⟩ => ⟨S900000, .i1⟩
  | .hbm, ⟨30, _⟩ => ⟨S_, .i32⟩
  | .hbm, ⟨31, _⟩ => ⟨S900000, .i32⟩
  | .hbm, ⟨32, _⟩ => ⟨S900000, .i32⟩
  | .hbm, ⟨33, _⟩ => ⟨S900000, .i32⟩
  | .hbm, ⟨34, _⟩ => ⟨S900000x1, .i32⟩
  | .hbm, ⟨35, _⟩ => ⟨S900000, .f32⟩
  | .hbm, ⟨36, _⟩ => ⟨S_, .i32⟩
  | .hbm, ⟨37, _⟩ => ⟨S900000, .i32⟩
  | .hbm, ⟨38, _⟩ => ⟨S900000, .i1⟩
  | .hbm, ⟨39, _⟩ => ⟨S_, .i32⟩
  | .hbm, ⟨40, _⟩ => ⟨S900000, .i32⟩
  | .hbm, ⟨41, _⟩ => ⟨S900000, .i32⟩
  | .hbm, ⟨42, _⟩ => ⟨S900000, .i32⟩
  | .hbm, ⟨43, _⟩ => ⟨S900000x1, .i32⟩
  | .hbm, ⟨44, _⟩ => ⟨S900000, .f32⟩
  | .hbm, ⟨45, _⟩ => ⟨S900000, .f32⟩
  | .hbm, ⟨46, _⟩ => ⟨S100000x256, .f32⟩
  | .hbm, ⟨47, _⟩ => ⟨S_, .i32⟩
  | .hbm, ⟨48, _⟩ => ⟨S900000, .i32⟩
  | .hbm, ⟨49, _⟩ => ⟨S900000, .i1⟩
  | .hbm, ⟨50, _⟩ => ⟨S_, .i32⟩
  | .hbm, ⟨51, _⟩ => ⟨S900000, .i32⟩
  | .hbm, ⟨52, _⟩ => ⟨S900000, .i32⟩
  | .hbm, ⟨53, _⟩ => ⟨S900000, .i32⟩
  | .hbm, ⟨54, _⟩ => ⟨S900000x1, .i32⟩
  | .hbm, ⟨55, _⟩ => ⟨S900000x256, .f32⟩
  | .hbm, ⟨56, _⟩ => ⟨S900000x1, .f32⟩
  | .hbm, ⟨57, _⟩ => ⟨S900000x256, .f32⟩
  | .hbm, ⟨58, _⟩ => ⟨S900000x256, .f32⟩
  | .hbm, ⟨59, _⟩ => ⟨S_, .f32⟩
  | .hbm, ⟨60, _⟩ => ⟨S100000x256, .f32⟩
  | .hbm, ⟨61, _⟩ => ⟨S900000x1, .i32⟩
  | .hbm, ⟨62, _⟩ => ⟨S100000x256, .f32⟩
  | .hbm, ⟨63, _⟩ => ⟨S1x256, .f32⟩
  | .hbm, ⟨64, _⟩ => ⟨S100000x256, .f32⟩
  | .hbm, ⟨65, _⟩ => ⟨S100000x256, .f32⟩
  | .hbm, ⟨66, _⟩ => ⟨S_, .f32⟩
  | .hbm, ⟨67, _⟩ => ⟨S100000x256, .f32⟩
  | .hbm, ⟨68, _⟩ => ⟨S100000x256, .f32⟩
  | .hbm, ⟨69, _⟩ => ⟨S100000x256, .f32⟩
  | .hbm, ⟨70, _⟩ => ⟨S_, .i32⟩
  | .hbm, ⟨71, _⟩ => ⟨S900000, .i32⟩
  | .hbm, ⟨72, _⟩ => ⟨S900000, .i1⟩
  | .hbm, ⟨73, _⟩ => ⟨S_, .i32⟩
  | .hbm, ⟨74, _⟩ => ⟨S900000, .i32⟩
  | .hbm, ⟨75, _⟩ => ⟨S900000, .i32⟩
  | .hbm, ⟨76, _⟩ => ⟨S900000, .i32⟩
  | .hbm, ⟨77, _⟩ => ⟨S900000x1, .i32⟩
  | .hbm, ⟨78, _⟩ => ⟨S900000x256, .f32⟩
  | .hbm, ⟨79, _⟩ => ⟨S900000x1, .f32⟩
  | .hbm, ⟨80, _⟩ => ⟨S900000x256, .f32⟩
  | .hbm, ⟨81, _⟩ => ⟨S900000x256, .f32⟩
  | .hbm, ⟨82, _⟩ => ⟨S_, .f32⟩
  | .hbm, ⟨83, _⟩ => ⟨S100000x256, .f32⟩
  | .hbm, ⟨84, _⟩ => ⟨S900000x1, .i32⟩
  | .hbm, ⟨85, _⟩ => ⟨S100000x256, .f32⟩
  | .hbm, ⟨86, _⟩ => ⟨S1x256, .f32⟩
  | .hbm, ⟨87, _⟩ => ⟨S100000x256, .f32⟩
  | .hbm, ⟨88, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x128_S128x256_S100000x256_1_0_0_1_n_n_wf : DotDims.WF S100000x128 S128x256 S100000x256 [1] [0] [0] [1] [] []
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S100000x256_S256x256_S100000x256_1_0_0_1_n_n_wf : DotDims.WF S100000x256 S256x256 S100000x256 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.KRun.lean ====
/-
  The idealized kernel's run with its result named.

  @main is seven segments: three stretches of host operations, the first pallas_call, a stretch, the second pallas_call,
  a last stretch. The generated frame proof carries the TensorCore's buffer contents through them as a fold
  (`Gen.W0` … `Gen.W7`) and reads the argument arrays off the last one. Read the result buffer off the same last
  contents and the run says: every weakly fair execution terminates with the result at `Gen.W7 m ρ c` of its buffer,
  the arguments unchanged.
-/
import proofs.«103662_j74191265071481_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the argument arrays as launched. -/
theorem run_W7 : θ_run defs (onTc (τ := τ) (main (F := F))) ⟨m, fun _ => 0, ρ⟩ (fun r => ∀ c : Dev nD,
      r.2.mem ((c.tc : Thread nD τ).loc main_v46) = W7 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v46 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Val

end
-- ==== Proof.GcnSpec.lean ====
/-
  The two-layer graph convolution both programs compute, as one function of the argument arrays.

  Nodes are `Fin 100000`, edges `Fin 800000`, features 128 → 256 → 256. The edge list `ei : [2, 800000]` holds a source
  word (row 0) and a destination word (row 1) per edge, any 32-bit words at all.
    • An edge LANDS on node `i` when its destination word, read as a signed integer, is `i`; an edge whose destination is
      no node lands nowhere (a scatter drops it).
    • An edge READS the row `srcRow e`: its source word, shifted up by the node count when negative, read signed and
      clamped into the array (what a gather does with any word).
    • `deg i` is one more than the number of edges landing on `i` (the self loop), `dinv i = deg i ^ (-1/2)`.
    • One layer takes `h : [100000, 256]` and a bias to
          dinv i · (Σ over edges e landing on i of  h (srcRow e) · dinv (srcRow e))  +  (dinv i · dinv i) · h i  +  b,
      the normalised sum over the neighbours with the self loop's term written out.
    • The result is  layer (relu (layer (x · W1) b1) · W2) b2.
  All values are extended reals; the sums are finite sums, so their order does not matter.
-/
import Idealize.ShloMosaic.PureOps.Ideal
import Idealize.ShloMosaic.Lib.ValueIdx

noncomputable section

open scoped BigOperators

namespace Cert.Gcn

open Idealize.ShloMosaic Idealize.ShloMosaic.ValueIdx

/-- `0.0` as both programs spell it. -/
abbrev zeroF : EReal := Ideal.ofBits .f32 0x00000000#32
/-- `1.0` as both programs spell it. -/
abbrev oneF : EReal := Ideal.ofBits .f32 0x3F800000#32

/-- A value that is a real number (neither infinity). -/
def IsReal (v : EReal) : Prop := ∃ r : ℝ, v = (r : EReal)

/-- The word a row gather is handed for a raw index word: a negative word shifted up by the node count. -/
def wrap (w : BitVec 32) : BitVec 32 := Scalar.select (IntOp.cmpi .slt w 0#32) (IntOp.addi w 100000#32) w

/-- The row of a `[100000, _]` array that a gather reads at an index word: the word read signed, clamped into the array. -/
def row (w : BitVec 32) : Fin 100000 := ⟨min w.toInt.toNat 99999, by omega⟩

section
variable (ei : IVec ⟨2, ![2, 800000]⟩ 32)

/-- The row edge `e` reads. -/
def srcRow (e : Fin 800000) : Fin 100000 := row (wrap (ei (ix2 0 e)))

/-- The edges landing on node `i`. -/
def into (i : Fin 100000) : Finset (Fin 800000) := Finset.univ.filter fun e => (ei (ix2 1 e)).toInt = (i.val : Int)

/-- One more than the number of edges landing on `i`. -/
def deg (i : Fin 100000) : EReal := (zeroF + ∑ _e ∈ into ei i, oneF) + oneF

/-- `deg i ^ (-1/2)`, guarded as the programs guard it (the guard never fires: `deg i ≥ 1`). -/
def dinv (i : Fin 100000) : EReal :=
  Scalar.select (Ideal.cmp .ogt (deg ei i) zeroF) (Ideal.rsqrt (deg ei i)) zeroF

/-- What the edges landing on `i` bring: the rows they read, each scaled by its own node's `dinv`. -/
def agg (h : Fin 100000 → Fin 256 → EReal) (i : Fin 100000) (j : Fin 256) : EReal :=
  zeroF + ∑ e ∈ into ei i, h (srcRow ei e) j * dinv ei (srcRow ei e)

/-- One layer after its linear map: neighbours, self loop, bias. -/
def layer (h : Fin 100000 → Fin 256 → EReal) (b : Fin 256 → EReal) (i : Fin 100000) (j : Fin 256) : EReal :=
  dinv ei i * agg ei h i j + dinv ei i * dinv ei i * h i j + b j
end

/-- A linear map: row `i` of `a` against column `j` of `w`. -/
def mm {K : Nat} (a : Fin 100000 → Fin K → EReal) (w : Fin K → Fin 256 → EReal) (i : Fin 100000) (j : Fin 256) : EReal :=
  ∑ k : Fin K, a i k * w k j

/-- `max v 0`. -/
def relu (v : EReal) : EReal := max v zeroF

/-- The first layer's output after the rectifier. -/
def hidden (ei : IVec ⟨2, ![2, 800000]⟩ 32) (x : Fin 100000 → Fin 128 → EReal) (W1 : Fin 128 → Fin 256 → EReal)
    (b1 : Fin 256 → EReal) (i : Fin 100000) (j : Fin 256) : EReal :=
  relu (layer ei (mm x W1) b1 i j)

/-- THE RESULT, element `(i, j)`. -/
def out (ei : IVec ⟨2, ![2, 800000]⟩ 32) (x : Fin 100000 → Fin 128 → EReal) (W1 : Fin 128 → Fin 256 → EReal)
    (b1 : Fin 256 → EReal) (W2 : Fin 256 → Fin 256 → EReal) (b2 : Fin 256 → EReal) (i : Fin 100000) (j : Fin 256) : EReal :=
  layer ei (mm (hidden ei x W1 b1) W2) b2 i j

/-- THE RESULT as an array over the programs' argument arrays. -/
def G (X : (⟨2, ![100000, 128]⟩ : Shape).Idx → EReal) (ei : IVec ⟨2, ![2, 800000]⟩ 32)
    (W1 : (⟨2, ![128, 256]⟩ : Shape).Idx → EReal) (b1 : (⟨1, ![256]⟩ : Shape).Idx → EReal)
    (W2 : (⟨2, ![256, 256]⟩ : Shape).Idx → EReal) (b2 : (⟨1, ![256]⟩ : Shape).Idx → EReal) :
    (⟨2, ![100000, 256]⟩ : Shape).Idx → EReal :=
  fun idx => out ei (fun i k => X (ix2 i k)) (fun k j => W1 (ix2 k j)) (fun j => b1 (ix1 j))
    (fun k j => W2 (ix2 k j)) (fun j => b2 (ix1 j)) (idx 0) (idx 1)

end Cert.Gcn

end
-- ==== Proof.LibScatterRows.lean ====
/-
  A scatter-add whose every update is addressed by ONE signed index word (scatter indices `[E, 1]`, the index vector on
  axis 1, its one component sent to operand axis 0, that axis inserted), read at one element over the extended reals.
  Two shapes of it: scalar updates `[E]` into a vector `[N]`, and row updates `[E, M]` into a matrix `[N, M]` (axis 1 of
  the update is the window axis). Update `e` lands on row `n` exactly when its index word, read signed, is `n`; an update
  whose word is no row is dropped. So the element is the operand's element plus the sum over the updates landing on
  its row. Stated over variable extents, so nothing here enumerates an axis.
-/
import Idealize.ShloMosaic.PureOps.Ideal
import Idealize.ShloMosaic.PureOps.Ideal.Laws
import Idealize.ShloMosaic.PureOps.Contract
import Idealize.ShloMosaic.Lib.ValueIdx

noncomputable section

open scoped BigOperators

namespace Cert.ScatterRows

open Idealize.ShloMosaic Idealize.ShloMosaic.ValueIdx

/-! ## Scalar updates into a vector -/

/-- The dimension numbers of a scatter of scalar updates `[E]` into `[N]` by index words `[E, 1]`: no update window
    axes, the operand's one axis inserted, the one index component sent to it, index vector on axis 1. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The operand's one axis is inserted, so an update has no window coordinate on it. -/
theorem window_vec {N E : Nat} (wf : ScatterDims.WF ⟨1, ![N]⟩ ⟨2, ![E, 1]⟩ ⟨1, ![E]⟩ [] [0] [0] 1)
    (j : (⟨1, ![E]⟩ : Shape).Idx) (a : Fin 1) :
    (vecDims N E wf).window j a = 0 := by
  unfold ScatterDims.window
  refine dif_neg ?_
  show ¬ a ∈ (List.finRange 1).filter (fun b => decide (b ∉ ([0] : List (Fin 1))))
  revert a; decide

/-- The start of update `e` on the operand's axis is its index word, read signed. -/
theorem start_vec {N E w : Nat} (wf : ScatterDims.WF ⟨1, ![N]⟩ ⟨2, ![E, 1]⟩ ⟨1, ![E]⟩ [] [0] [0] 1)
    (idx : IVec ⟨2, ![E, 1]⟩ w) (e : Fin E) :
    (vecDims N E wf).start (ix1 e) idx 0 = (idx (ix2 e (0 : Fin 1))).toInt := by
  unfold ScatterDims.start
  rw [dif_pos (show (0 : Fin 1) ∈ ([0] : List (Fin 1)) by decide)]
  congr 2
  funext b; refine Fin.ext ?_
  match b with
  | ⟨0, _⟩ => rfl
  | ⟨1, _⟩ => rfl

/-- WHERE AN UPDATE LANDS: update `e` lands on `n` exactly when its index word, read signed, is `n`. -/
theorem resultIdx?_vec {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecDims N E wf).resultIdx? (ix1 e) idx = some (ix1 n) ↔ (idx (ix2 e (0 : Fin 1))).toInt = (n.val : Int) := by
  have hn := n.isLt
  unfold ScatterDims.resultIdx?
  constructor
  · intro h
    split at h
    · next hin =>
      have hf := Option.some.inj h
      have h0 : ((vecDims N E wf).start (ix1 e) idx 0 + ((vecDims N E wf).window (ix1 e) 0 : Nat)).toNat = n.val :=
        congrArg (fun i : (⟨1, ![N]⟩ : Shape).Idx => (i 0).val) hf
      have b0 := (hin 0).1
      rw [window_vec, start_vec] at h0 b0
      omega
    · exact absurd h (by simp)
  · intro h0
    have hin : ∀ a : Fin 1, 0 ≤ (vecDims N E wf).start (ix1 e) idx a + ((vecDims N E wf).window (ix1 e) a : Nat) ∧
        (vecDims N E wf).start (ix1 e) idx a + ((vecDims N E wf).window (ix1 e) a : Nat)
          < ((⟨1, ![N]⟩ : Shape).size a : Nat) := by
      intro a
      match a with
      | ⟨0, _⟩ =>
        show 0 ≤ (vecDims N E wf).start (ix1 e) idx 0 + ((vecDims N E wf).window (ix1 e) 0 : Nat) ∧
          (vecDims N E wf).start (ix1 e) idx 0 + ((vecDims N E wf).window (ix1 e) 0 : Nat) < (N : Int)
        rw [window_vec, start_vec, h0]; omega
    rw [dif_pos hin]
    congr 1
    funext a; refine Fin.ext ?_
    match a with
    | ⟨0, _⟩ =>
      show ((vecDims N E wf).start (ix1 e) idx 0 + ((vecDims N E wf).window (ix1 e) 0 : Nat)).toNat = n.val
      rw [window_vec, start_vec, h0]; omega

/-- The scatter-add of `vecDims` read at `n`. -/
theorem scatterAdd_vec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecDims N E wf) x idx upd (ix1 n) =
      x (ix1 n) + ∑ e ∈ Finset.univ.filter (fun e : Fin E => (idx (ix2 e (0 : Fin 1))).toInt = (n.val : Int)), upd (ix1 e) := by
  show Ideal.hostScatterAdd (vecDims N E wf) x idx upd (ix1 n) = _
  unfold Ideal.hostScatterAdd
  congr 1
  -- re-index the sum over the update's indices by their one coordinate
  refine Finset.sum_nbij' (fun j => j 0) (fun e => ix1 e) ?_ ?_ ?_ ?_ ?_
  · intro j hj
    have h := (Finset.mem_filter.1 hj).2
    have h' : (vecDims N E wf).resultIdx? (ix1 (j 0)) idx = some (ix1 n) :=
      (congrArg (fun q => (vecDims N E wf).resultIdx? q idx) (eq_ix1 j)).symm.trans h
    exact Finset.mem_filter.2 ⟨Finset.mem_univ _, (resultIdx?_vec wf idx (j 0) n).1 h'⟩
  · intro e he
    exact Finset.mem_filter.2 ⟨Finset.mem_univ _, (resultIdx?_vec wf idx e n).2 (Finset.mem_filter.1 he).2⟩
  · intro j _; exact (eq_ix1 j).symm
  · intro e _; rfl
  · intro j _; exact congrArg upd (eq_ix1 j)

/-- Scalar updates into a vector, read at `n`. -/
theorem scatterAdd_vec_apply_of_fields {N E w : Nat} {φ : FTy}
    (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (x : FVec Ideal ⟨1, ![N]⟩ φ) (idx : IVec ⟨2, ![E, 1]⟩ w) (upd : FVec Ideal ⟨1, ![E]⟩ φ) (n : Fin N) :
    Host.scatterAdd (F := Ideal) d x idx upd (ix1 n) =
      x (ix1 n) + ∑ e ∈ Finset.univ.filter (fun e : Fin E => (idx (ix2 e (0 : Fin 1))).toInt = (n.val : Int)), upd (ix1 e) := by
  obtain ⟨uw, iw, sd, iv, wf⟩ := d
  dsimp only at huw hiw hsd hiv
  subst huw hiw hsd hiv
  exact scatterAdd_vec_apply wf x idx upd n

/-! ## Row updates into a matrix -/

/-- The dimension numbers of a scatter of row updates `[E, M]` into `[N, M]` by index words `[E, 1]`: axis 1 of the
    update the one window axis, operand axis 0 inserted, the one index component sent to it, index vector on axis 1. -/
abbrev rowDims (N M E : Nat) (wf : ScatterDims.WF ⟨2, ![N, M]⟩ ⟨2, ![E, 1]⟩ ⟨2, ![E, M]⟩ [1] [0] [0] 1) :
    ScatterDims ⟨2, ![N, M]⟩ ⟨2, ![E, 1]⟩ ⟨2, ![E, M]⟩ where
  updateWindowDims := [1]
  insertedWindowDims := [0]
  scatterDimsToOperandDims := [0]
  indexVectorDim := 1
  wf := wf

/-- The row axis is inserted, so an update has no window coordinate on it. -/
theorem window_rows_zero {N M E : Nat} (wf : ScatterDims.WF ⟨2, ![N, M]⟩ ⟨2, ![E, 1]⟩ ⟨2, ![E, M]⟩ [1] [0] [0] 1)
    (j : (⟨2, ![E, M]⟩ : Shape).Idx) :
    (rowDims N M E wf).window j 0 = 0 := by
  unfold ScatterDims.window
  refine dif_neg ?_
  show ¬ (0 : Fin 2) ∈ (List.finRange 2).filter (fun b => decide (b ∉ ([0] : List (Fin 2))))
  decide

/-- On the column axis the window coordinate of update `(e, k')` is `k'`. -/
theorem window_rows_one {N M E : Nat} (wf : ScatterDims.WF ⟨2, ![N, M]⟩ ⟨2, ![E, 1]⟩ ⟨2, ![E, M]⟩ [1] [0] [0] 1)
    (e : Fin E) (k' : Fin M) :
    (rowDims N M E wf).window (ix2 e k') 1 = k'.val := by
  unfold ScatterDims.window
  have h : (1 : Fin 2) ∈ (rowDims N M E wf).sKept := by
    show (1 : Fin 2) ∈ (List.finRange 2).filter (fun b => decide (b ∉ ([0] : List (Fin 2))))
    decide
  rw [dif_pos h]
  rfl

/-- The start of update `(e, k')` on the row axis is the index word of `e`, read signed. -/
theorem start_rows_zero {N M E w : Nat} (wf : ScatterDims.WF ⟨2, ![N, M]⟩ ⟨2, ![E, 1]⟩ ⟨2, ![E, M]⟩ [1] [0] [0] 1)
    (idx : IVec ⟨2, ![E, 1]⟩ w) (e : Fin E) (k' : Fin M) :
    (rowDims N M E wf).start (ix2 e k') idx 0 = (idx (ix2 e (0 : Fin 1))).toInt := by
  unfold ScatterDims.start
  rw [dif_pos (show (0 : Fin 2) ∈ ([0] : List (Fin 2)) by decide)]
  congr 2
  funext b; refine Fin.ext ?_
  match b with
  | ⟨0, _⟩ => rfl
  | ⟨1, _⟩ => rfl

/-- No index component is sent to the column axis: the start there is 0. -/
theorem start_rows_one {N M E w : Nat} (wf : ScatterDims.WF ⟨2, ![N, M]⟩ ⟨2, ![E, 1]⟩ ⟨2, ![E, M]⟩ [1] [0] [0] 1)
    (idx : IVec ⟨2, ![E, 1]⟩ w) (j : (⟨2, ![E, M]⟩ : Shape).Idx) :
    (rowDims N M E wf).start j idx 1 = 0 := by
  unfold ScatterDims.start
  refine dif_neg ?_
  show ¬ (1 : Fin 2) ∈ ([0] : List (Fin 2))
  decide

/-- WHERE AN UPDATE LANDS: update `(e, k')` lands at `(n, k)` exactly when the index word of `e`, read signed, is `n`
    and `k' = k`. -/
theorem resultIdx?_rows {N M E w : Nat} (wf : ScatterDims.WF ⟨2, ![N, M]⟩ ⟨2, ![E, 1]⟩ ⟨2, ![E, M]⟩ [1] [0] [0] 1)
    (idx : IVec ⟨2, ![E, 1]⟩ w) (e : Fin E) (k' : Fin M) (n : Fin N) (k : Fin M) :
    (rowDims N M E wf).resultIdx? (ix2 e k') idx = some (ix2 n k) ↔
      (idx (ix2 e (0 : Fin 1))).toInt = (n.val : Int) ∧ k' = k := by
  have hn := n.isLt
  have hk := k.isLt
  unfold ScatterDims.resultIdx?
  constructor
  · intro h
    split at h
    · next hin =>
      have hf := Option.some.inj h
      have h0 : ((rowDims N M E wf).start (ix2 e k') idx 0 + ((rowDims N M E wf).window (ix2 e k') 0 : Nat)).toNat = n.val :=
        congrArg (fun i : (⟨2, ![N, M]⟩ : Shape).Idx => (i 0).val) hf
      have h1 : ((rowDims N M E wf).start (ix2 e k') idx 1 + ((rowDims N M E wf).window (ix2 e k') 1 : Nat)).toNat = k.val :=
        congrArg (fun i : (⟨2, ![N, M]⟩ : Shape).Idx => (i 1).val) hf
      have b0 := (hin 0).1
      rw [window_rows_zero, start_rows_zero] at h0 b0
      rw [window_rows_one, start_rows_one] at h1
      exact ⟨by omega, Fin.ext (by omega)⟩
    · exact absurd h (by simp)
  · rintro ⟨h0, rfl⟩
    have hin : ∀ a : Fin 2, 0 ≤ (rowDims N M E wf).start (ix2 e k') idx a + ((rowDims N M E wf).window (ix2 e k') a : Nat) ∧
        (rowDims N M E wf).start (ix2 e k') idx a + ((rowDims N M E wf).window (ix2 e k') a : Nat)
          < ((⟨2, ![N, M]⟩ : Shape).size a : Nat) := by
      intro a
      match a with
      | ⟨0, _⟩ =>
        show 0 ≤ (rowDims N M E wf).start (ix2 e k') idx 0 + ((rowDims N M E wf).window (ix2 e k') 0 : Nat) ∧
          (rowDims N M E wf).start (ix2 e k') idx 0 + ((rowDims N M E wf).window (ix2 e k') 0 : Nat) < (N : Int)
        rw [window_rows_zero, start_rows_zero, h0]; omega
      | ⟨1, _⟩ =>
        show 0 ≤ (rowDims N M E wf).start (ix2 e k') idx 1 + ((rowDims N M E wf).window (ix2 e k') 1 : Nat) ∧
          (rowDims N M E wf).start (ix2 e k') idx 1 + ((rowDims N M E wf).window (ix2 e k') 1 : Nat) < (M : Int)
        rw [window_rows_one, start_rows_one]; omega
    rw [dif_pos hin]
    congr 1
    funext a; refine Fin.ext ?_
    match a with
    | ⟨0, _⟩ =>
      show ((rowDims N M E wf).start (ix2 e k') idx 0 + ((rowDims N M E wf).window (ix2 e k') 0 : Nat)).toNat = n.val
      rw [window_rows_zero, start_rows_zero, h0]; omega
    | ⟨1, _⟩ =>
      show ((rowDims N M E wf).start (ix2 e k') idx 1 + ((rowDims N M E wf).window (ix2 e k') 1 : Nat)).toNat = k'.val
      rw [window_rows_one, start_rows_one]; omega

/-- The scatter-add of `rowDims` read at `(n, k)`: of the updates `(e, k')` only those with `k' = k` land in column `k`,
    so the sum over the landing updates is a sum over the rows `e` whose word is `n`. -/
theorem scatterAdd_rows_apply {N M E w : Nat} {φ : FTy}
    (wf : ScatterDims.WF ⟨2, ![N, M]⟩ ⟨2, ![E, 1]⟩ ⟨2, ![E, M]⟩ [1] [0] [0] 1)
    (x : FVec Ideal ⟨2, ![N, M]⟩ φ) (idx : IVec ⟨2, ![E, 1]⟩ w) (upd : FVec Ideal ⟨2, ![E, M]⟩ φ)
    (n : Fin N) (k : Fin M) :
    Host.scatterAdd (F := Ideal) (rowDims N M E wf) x idx upd (ix2 n k) =
      x (ix2 n k) + ∑ e ∈ Finset.univ.filter (fun e : Fin E => (idx (ix2 e (0 : Fin 1))).toInt = (n.val : Int)), upd (ix2 e k) := by
  show Ideal.hostScatterAdd (rowDims N M E wf) x idx upd (ix2 n k) = _
  unfold Ideal.hostScatterAdd
  congr 1
  -- what membership in the landing set says about an update index, by coordinates
  have key : ∀ j : (⟨2, ![E, M]⟩ : Shape).Idx, (rowDims N M E wf).resultIdx? j idx = some (ix2 n k) →
      (idx (ix2 (j 0) (0 : Fin 1))).toInt = (n.val : Int) ∧ j 1 = k := by
    intro j h
    have h' : (rowDims N M E wf).resultIdx? (ix2 (j 0) (j 1)) idx = some (ix2 n k) :=
      (congrArg (fun q => (rowDims N M E wf).resultIdx? q idx) (eq_ix2 j)).symm.trans h
    exact (resultIdx?_rows wf idx (j 0) (j 1) n k).1 h'
  refine Finset.sum_nbij' (fun j => j 0) (fun e => ix2 e k) ?_ ?_ ?_ ?_ ?_
  · intro j hj
    exact Finset.mem_filter.2 ⟨Finset.mem_univ _, (key j (Finset.mem_filter.1 hj).2).1⟩
  · intro e he
    exact Finset.mem_filter.2
      ⟨Finset.mem_univ _, (resultIdx?_rows wf idx e k n k).2 ⟨(Finset.mem_filter.1 he).2, rfl⟩⟩
  · intro j hj
    have hk := (key j (Finset.mem_filter.1 hj).2).2
    exact ((eq_ix2 j).trans (congrArg (fun q : Fin M => ix2 (j 0) q) hk)).symm
  · intro e _; rfl
  · intro j hj
    have hk := (key j (Finset.mem_filter.1 hj).2).2
    exact congrArg upd ((eq_ix2 j).trans (congrArg (fun q : Fin M => ix2 (j 0) q) hk))

/-- Row updates into a matrix, read at `(n, k)`. -/
theorem scatterAdd_rows_apply_of_fields {N M E w : Nat} {φ : FTy}
    (d : ScatterDims ⟨2, ![N, M]⟩ ⟨2, ![E, 1]⟩ ⟨2, ![E, M]⟩)
    (huw : d.updateWindowDims = [1]) (hiw : d.insertedWindowDims = [0])
    (hsd : d.scatterDimsToOperandDims = [0]) (hiv : d.indexVectorDim = 1)
    (x : FVec Ideal ⟨2, ![N, M]⟩ φ) (idx : IVec ⟨2, ![E, 1]⟩ w) (upd : FVec Ideal ⟨2, ![E, M]⟩ φ)
    (n : Fin N) (k : Fin M) :
    Host.scatterAdd (F := Ideal) d x idx upd (ix2 n k) =
      x (ix2 n k) + ∑ e ∈ Finset.univ.filter (fun e : Fin E => (idx (ix2 e (0 : Fin 1))).toInt = (n.val : Int)), upd (ix2 e k) := by
  obtain ⟨uw, iw, sd, iv, wf⟩ := d
  dsimp only at huw hiw hsd hiv
  subst huw hiw hsd hiv
  exact scatterAdd_rows_apply wf x idx upd n k

end Cert.ScatterRows

end
-- ==== Proof.LibGatherRows.lean ====
/-
  A gather whose every result row is addressed by ONE signed index word (start indices `[E, 1]`, the index vector on
  axis 1, its one component the start on operand axis 0, that axis collapsed, slice size 1 along it), read at one
  element. Two shapes of it: elements of a vector `[N]` gathered into `[E]`, and rows of a matrix `[N, M]` gathered into
  `[E, M]` (axis 1 of the result is the offset axis, the slice the whole row). Result row `e` is the operand's row at
  the index word read signed and clamped into `[0, N - 1]`. Stated over variable extents and any element type.
-/
import Idealize.ShloMosaic.PureOps.ShapeOps
import Idealize.ShloMosaic.Lib.ValueIdx

namespace Cert.GatherRows

open Idealize.ShloMosaic Idealize.ShloMosaic.ValueIdx

/-! ## Elements of a vector -/

/-- The dimension numbers of a gather of elements of `[N]` into `[E]` by index words `[E, 1]`: no offset axes, the
    operand's one axis collapsed, the one index component its start, index vector on axis 1, slice size 1. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of `vecDims` read at `e`: on the one operand axis there is no batching and no offset coordinate, and the
    start is the index word of `e` read signed and clamped into `[0, N - 1]`. -/
theorem gather_vec_apply {N E w : Nat} {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) =
      x (ix1 ⟨min (idx (ix2 e (0 : Fin 1))).toInt.toNat (N - 1), by omega⟩) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Elements of a vector, read at `e`. -/
theorem gather_vec_apply_of_fields {N E w : Nat} {α : Type} (hN : 0 < N)
    (d : GatherDims ⟨1, ![N]⟩ ⟨2, ![E, 1]⟩ ⟨1, ![E]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e) = x (ix1 ⟨min (idx (ix2 e (0 : Fin 1))).toInt.toNat (N - 1), by omega⟩) := by
  obtain ⟨od, cs, ob, sb, sm, iv, ss, wf⟩ := d
  dsimp only at hod hcs hob hsb hsm hiv hss
  subst hod hcs hob hsb hsm hiv hss
  exact gather_vec_apply hN wf x idx e

/-! ## Rows of a matrix -/

/-- The dimension numbers of a gather of rows of `[N, M]` into `[E, M]` by index words `[E, 1]`: axis 1 of the result
    the one offset axis, operand axis 0 collapsed, the one index component its start, index vector on axis 1, the slice
    one whole row. -/
abbrev rowDims (N M E : Nat) (wf : GatherDims.WF ⟨2, ![N, M]⟩ ⟨2, ![E, 1]⟩ ⟨2, ![E, M]⟩ [1] [0] [] [0] [] 1 ![1, M]) :
    GatherDims ⟨2, ![N, M]⟩ ⟨2, ![E, 1]⟩ ⟨2, ![E, M]⟩ where
  offsetDims := [1]
  collapsedSliceDims := [0]
  operandBatchingDims := []
  startIndicesBatchingDims := []
  startIndexMap := [0]
  indexVectorDim := 1
  sliceSizes := ![1, M]
  wf := wf

/-- The gather of `rowDims` read at `(e, k)`: on the row axis the start is the index word of `e` read signed and clamped
    into `[0, N - 1]`, with no offset; on the column axis the start is 0 and the offset coordinate is `k`. -/
theorem gather_rows_apply {N M E w : Nat} {α : Type} (hN : 0 < N)
    (wf : GatherDims.WF ⟨2, ![N, M]⟩ ⟨2, ![E, 1]⟩ ⟨2, ![E, M]⟩ [1] [0] [] [0] [] 1 ![1, M])
    (x : (⟨2, ![N, M]⟩ : Shape).Idx → α) (idx : IVec ⟨2, ![E, 1]⟩ w) (e : Fin E) (k : Fin M) :
    Host.gather (rowDims N M E wf) x idx (ix2 e k) =
      x (ix2 ⟨min (idx (ix2 e (0 : Fin 1))).toInt.toNat (N - 1), by omega⟩ k) := by
  unfold Host.gather
  congr 1
  funext a
  refine Fin.ext ?_
  match a with
  | ⟨0, _⟩ =>
    show (rowDims N M E wf).start (ix2 e k) idx 0 + (rowDims N M E wf).batchCoord (ix2 e k) 0
      + (rowDims N M E wf).offCoord (ix2 e k) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N M E wf).startIndexMap from List.mem_singleton.mpr rfl)]
    have hsi : (rowDims N M E wf).siIdx (ix2 e k) ⟨List.idxOf (0 : Fin 2) (rowDims N M E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N M E wf).start (ix2 e k) idx 1 + (rowDims N M E wf).batchCoord (ix2 e k) 1
      + (rowDims N M E wf).offCoord (ix2 e k) 1 = k.val
    have hs : (rowDims N M E wf).start (ix2 e k) idx 1 = 0 := by
      unfold GatherDims.start
      refine dif_neg ?_
      show ¬ (1 : Fin 2) ∈ ([0] : List (Fin 2))
      decide
    have ho : (rowDims N M E wf).offCoord (ix2 e k) 1 = k.val := by
      unfold GatherDims.offCoord
      have h : (1 : Fin 2) ∈ (rowDims N M E wf).sKept := by
        refine (GatherDims.mem_sKept (rowDims N M E wf) 1).2 ⟨?_, List.not_mem_nil⟩
        show ¬ (1 : Fin 2) ∈ ([0] : List (Fin 2))
        decide
      rw [dif_pos h]
      rfl
    rw [GatherDims.batchCoord_eq_zero _ _ _ List.not_mem_nil, hs, ho]
    omega

/-- Rows of a matrix, read at `(e, k)`. -/
theorem gather_rows_apply_of_fields {N M E w : Nat} {α : Type} (hN : 0 < N)
    (d : GatherDims ⟨2, ![N, M]⟩ ⟨2, ![E, 1]⟩ ⟨2, ![E, M]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, M])
    (x : (⟨2, ![N, M]⟩ : Shape).Idx → α) (idx : IVec ⟨2, ![E, 1]⟩ w) (e : Fin E) (k : Fin M) :
    Host.gather d x idx (ix2 e k) = x (ix2 ⟨min (idx (ix2 e (0 : Fin 1))).toInt.toNat (N - 1), by omega⟩ k) := by
  obtain ⟨od, cs, ob, sb, sm, iv, ss, wf⟩ := d
  dsimp only at hod hcs hob hsb hsm hiv hss
  subst hod hcs hob hsb hsm hiv hss
  exact gather_rows_apply hN wf x idx e k

end Cert.GatherRows
-- ==== Proof.KHostVals.lean ====
/-
  The idealized kernel's host operations as values, and each read at an index.

  Around its two pallas_calls the kernel's @main computes, on the host:
    • the two rows of the edge list as word vectors (`srcW`, `dstW`), and the source words shifted up by the node count
      where negative (`wsrcW`: what a row gather is handed);
    • the degree by a scatter of ones at the destination words, plus one; its inverse square root under the guard
      `deg > 0` (`dinvK`), as a column (`dinvColK`);
    • after each pallas_call, the rows of its pre-scaled output gathered at the shifted source words and scattered at the
      destination words into zeros (`aggK`);
    • the first layer's bias as a row (`b1RowK`); and, last, `dinv · agg + (dinv · dinv) · h + b` (`tailK`).
  Read at an index these are `Cert.Gcn`'s `dinv`, `agg` and `layer`.
-/
import proofs.«103662_j74191265071481_2_alg».proof.Proof.Gen.KernelIdeal
import proofs.«103662_j74191265071481_2_alg».proof.Proof.GcnSpec
import proofs.«103662_j74191265071481_2_alg».proof.Proof.LibScatterRows
import proofs.«103662_j74191265071481_2_alg».proof.Proof.LibGatherRows
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.Val

open Cert.KernelIdeal Cert.KernelIdeal.Facts₀ Idealize.ShloMosaic Idealize.ShloMosaic.ValueIdx Cert.Gcn

/-- Row 0 of the edge list: the source words. -/
def srcW (ei : IVec S2x800000 32) : IVec S800000 32 :=
  shapeCast S800000 (extractStridedSlice S1x800000 ![0, 0] ei slices_S2x800000_S1x800000_0_0) shapeCasts_S1x800000_S800000

/-- Row 1 of the edge list: the destination words. -/
def dstW (ei : IVec S2x800000 32) : IVec S800000 32 :=
  shapeCast S800000 (extractStridedSlice S1x800000 ![1, 0] ei slices_S2x800000_S1x800000_1_0) shapeCasts_S1x800000_S800000

/-- The source words as a row gather is handed them: a negative word shifted up by the node count. -/
def wsrcW (ei : IVec S2x800000 32) : IVec S800000 32 :=
  select (cmpi .slt (srcW ei) (broadcastInDim S800000 ![] bcast_S_S800000 (constantI S_ 32 0#32)))
    (addi (srcW ei) (broadcastInDim S800000 ![] bcast_S_S800000 (constantI S_ 32 100000#32))) (srcW ei)

/-- The degree: ones scattered at the destination words into zeros, plus one. -/
def degK (ei : IVec S2x800000 32) : FVec Ideal S100000 .f32 :=
  addf (Host.scatterAdd scatter_S100000_S800000x1_S800000_n_0_0_1
      (broadcastInDim S100000 ![] bcast_S_S100000 (constant S_ .f32 0x00000000#32))
      (broadcastInDim S800000x1 ![0] bcast_S800000_S800000x1_0 (dstW ei))
      (broadcastInDim S800000 ![] bcast_S_S800000 (constant S_ .f32 0x3F800000#32)))
    (broadcastInDim S100000 ![] bcast_S_S100000 (constant S_ .f32 0x3F800000#32))

/-- `where (deg > 0) (rsqrt deg) 0`. -/
def dinvK (ei : IVec S2x800000 32) : FVec Ideal S100000 .f32 :=
  select (cmpf .ogt (degK ei) (broadcastInDim S100000 ![] bcast_S_S100000 (constant S_ .f32 0x00000000#32)))
    (Host.rsqrt (degK ei))
    (broadcastInDim S100000 ![] bcast_S_S100000 (id (constant S_ .f32 0x00000000#32)))

/-- The same as a column. -/
def dinvColK (ei : IVec S2x800000 32) : FVec Ideal S100000x1 .f32 :=
  broadcastInDim S100000x1 ![0] bcast_S100000_S100000x1_0 (dinvK ei)

/-- Rows of `HS` gathered at the shifted source words, scattered at the destination words into zeros. -/
def aggK (ei : IVec S2x800000 32) (HS : FVec Ideal S100000x256 .f32) : FVec Ideal S100000x256 .f32 :=
  Host.scatterAdd scatter_S100000x256_S800000x1_S800000x256_1_0_0_1
    (broadcastInDim S100000x256 ![] bcast_S_S100000x256 (constant S_ .f32 0x00000000#32))
    (broadcastInDim S800000x1 ![0] bcast_S800000_S800000x1_0 (dstW ei))
    (Host.gather gather_S100000x256_S800000x1_S800000x256_1_0_n_n_0_1_1256 HS
      (broadcastInDim S800000x1 ![0] bcast_S800000_S800000x1_0 (wsrcW ei)))

/-- The first layer's bias as a row. -/
def b1RowK (b1 : FVec Ideal S256 .f32) : FVec Ideal S1x256 .f32 := shapeCast S1x256 b1 shapeCasts_S256_S1x256

/-- The last host operations: `dinv · agg + (dinv · dinv) · h + b`. -/
def tailK (ei : IVec S2x800000 32) (H2 H2S : FVec Ideal S100000x256 .f32) (b2 : FVec Ideal S256 .f32) :
    FVec Ideal S100000x256 .f32 :=
  addf (addf (mulf (broadcastInDim S100000x256 ![0, 1] bcast_S100000x1_S100000x256_0_1 (dinvColK ei)) (aggK ei H2S))
      (mulf (broadcastInDim S100000x256 ![0, 1] bcast_S100000x1_S100000x256_0_1 (mulf (dinvColK ei) (dinvColK ei))) H2))
    (broadcastInDim S100000x256 ![0, 1] bcast_S1x256_S100000x256_0_1 (broadcastInDim S1x256 ![1] bcast_S256_S1x256_1 b2))

/-! ## Read at an index -/

theorem srcW_apply (ei : IVec S2x800000 32) (e : Fin 800000) : srcW ei (ix1 e) = ei (ix2 0 e) := by
  unfold srcW
  refine (shapeCast_apply _ shapeCasts_S1x800000_S800000 (ix1 e) (ix2 (0 : Fin 1) e) ?_).trans ?_
  · rw [Shape.rowMajor_val_two, Shape.rowMajor_val_one]
    show 0 * 800000 + e.val = e.val
    omega
  · exact extractStridedSlice_apply ![0, 0] ei slices_S2x800000_S1x800000_0_0 (ix2 (0 : Fin 1) e) (ix2 0 e)
      (fun a => match a with
        | ⟨0, _⟩ => by show (0 : Nat) = 0 + 0; rfl
        | ⟨1, _⟩ => by show e.val = 0 + e.val; omega)

theorem dstW_apply (ei : IVec S2x800000 32) (e : Fin 800000) : dstW ei (ix1 e) = ei (ix2 1 e) := by
  unfold dstW
  refine (shapeCast_apply _ shapeCasts_S1x800000_S800000 (ix1 e) (ix2 (0 : Fin 1) e) ?_).trans ?_
  · rw [Shape.rowMajor_val_two, Shape.rowMajor_val_one]
    show 0 * 800000 + e.val = e.val
    omega
  · exact extractStridedSlice_apply ![1, 0] ei slices_S2x800000_S1x800000_1_0 (ix2 (0 : Fin 1) e) (ix2 1 e)
      (fun a => match a with
        | ⟨0, _⟩ => by show (1 : Nat) = 1 + 0; rfl
        | ⟨1, _⟩ => by show e.val = 0 + e.val; omega)

theorem wsrcW_apply (ei : IVec S2x800000 32) (e : Fin 800000) : wsrcW ei (ix1 e) = wrap (ei (ix2 0 e)) := by
  show Scalar.select (IntOp.cmpi .slt (srcW ei (ix1 e)) 0#32) (IntOp.addi (srcW ei (ix1 e)) 100000#32) (srcW ei (ix1 e)) = _
  rw [srcW_apply]
  rfl

/-- A vector broadcast to a column reads, at `(e, 0)`, the vector at `e` (the edge extent). -/
theorem col800000_apply {α : Type} (x : S800000.Idx → α) (e : Fin 800000) (z : Fin 1) :
    broadcastInDim S800000x1 ![0] bcast_S800000_S800000x1_0 x (ix2 e z) = x (ix1 e) :=
  broadcastInDim_apply _ bcast_S800000_S800000x1_0 x (ix2 e z) (ix1 e) (fun a => match a with
    | ⟨0, _⟩ => by show e.val = if (800000 : Nat) = 1 then 0 else e.val; rw [if_neg (by decide)])

/-- A vector broadcast to a column reads, at `(i, 0)`, the vector at `i` (the node extent). -/
theorem col100000_apply {α : Type} (x : S100000.Idx → α) (i : Fin 100000) (z : Fin 1) :
    broadcastInDim S100000x1 ![0] bcast_S100000_S100000x1_0 x (ix2 i z) = x (ix1 i) :=
  broadcastInDim_apply _ bcast_S100000_S100000x1_0 x (ix2 i z) (ix1 i) (fun a => match a with
    | ⟨0, _⟩ => by show i.val = if (100000 : Nat) = 1 then 0 else i.val; rw [if_neg (by decide)])

/-- The edges whose destination word, read through the column broadcast, is `i` are the edges landing on `i`. -/
theorem landing_eq (ei : IVec S2x800000 32) (i : Fin 100000) :
    (Finset.univ.filter fun e : Fin 800000 =>
      ((broadcastInDim S800000x1 ![0] bcast_S800000_S800000x1_0 (dstW ei)) (ix2 e (0 : Fin 1))).toInt = (i.val : Int))
      = into ei i := by
  unfold into
  exact Finset.filter_congr fun e _ => by rw [col800000_apply, dstW_apply]

/-- The constant `0.0` broadcast over the nodes, read at a node. -/
theorem zeros100000_apply (n : Fin 100000) :
    broadcastInDim S100000 ![] bcast_S_S100000 (constant (F := Ideal) S_ .f32 0x00000000#32) (ix1 n) = zeroF := rfl

/-- The constant `1.0` broadcast over the nodes, read at a node. -/
theorem ones100000_apply (n : Fin 100000) :
    broadcastInDim S100000 ![] bcast_S_S100000 (constant (F := Ideal) S_ .f32 0x3F800000#32) (ix1 n) = oneF := rfl

/-- The constant `1.0` broadcast over the edges, read at an edge. -/
theorem ones800000_apply (e : Fin 800000) :
    broadcastInDim S800000 ![] bcast_S_S800000 (constant (F := Ideal) S_ .f32 0x3F800000#32) (ix1 e) = oneF := rfl

/-- The constant `0.0` broadcast over a `[100000, 256]` array, read at an element. -/
theorem zeros100000x256_apply (n : Fin 100000) (k : Fin 256) :
    broadcastInDim S100000x256 ![] bcast_S_S100000x256 (constant (F := Ideal) S_ .f32 0x00000000#32) (ix2 n k) = zeroF := rfl

/-- The degree the kernel computes, read at `i`. -/
theorem degK_apply (ei : IVec S2x800000 32) (i : Fin 100000) : degK ei (ix1 i) = deg ei i := by
  have hs := Cert.ScatterRows.scatterAdd_vec_apply_of_fields (φ := .f32) scatter_S100000_S800000x1_S800000_n_0_0_1
    rfl rfl rfl rfl
    (broadcastInDim S100000 ![] bcast_S_S100000 (constant S_ .f32 0x00000000#32))
    (broadcastInDim S800000x1 ![0] bcast_S800000_S800000x1_0 (dstW ei))
    (broadcastInDim S800000 ![] bcast_S_S800000 (constant S_ .f32 0x3F800000#32)) i
  rw [landing_eq] at hs
  unfold degK deg
  rw [addf_apply, hs, zeros100000_apply, ones100000_apply]
  exact congrArg (fun t : EReal => zeroF + t + oneF) (Finset.sum_congr rfl fun e _ => ones800000_apply e)

/-- The guarded inverse square root of any vector over the nodes, read at a node. -/
theorem guardedRsqrt_apply (D : FVec Ideal S100000 .f32) (i : Fin 100000) :
    select (cmpf .ogt D (broadcastInDim S100000 ![] bcast_S_S100000 (constant S_ .f32 0x00000000#32)))
        (Host.rsqrt D) (broadcastInDim S100000 ![] bcast_S_S100000 (id (constant S_ .f32 0x00000000#32))) (ix1 i)
      = Scalar.select (Ideal.cmp .ogt (D (ix1 i)) zeroF) (Ideal.rsqrt (D (ix1 i))) zeroF := rfl

theorem dinvK_apply (ei : IVec S2x800000 32) (i : Fin 100000) : dinvK ei (ix1 i) = dinv ei i := by
  unfold dinvK dinv
  rw [guardedRsqrt_apply, degK_apply]

theorem dinvColK_apply (ei : IVec S2x800000 32) (i : Fin 100000) (z : Fin 1) : dinvColK ei (ix2 i z) = dinv ei i := by
  unfold dinvColK
  rw [col100000_apply, dinvK_apply]

/-- The aggregate of any pre-scaled array, read at `(i, j)`: zero plus the sum over the edges landing on `i` of the
    row each reads. -/
theorem aggK_apply (ei : IVec S2x800000 32) (HS : FVec Ideal S100000x256 .f32) (i : Fin 100000) (j : Fin 256) :
    aggK ei HS (ix2 i j) = zeroF + ∑ e ∈ into ei i, HS (ix2 (srcRow ei e) j) := by
  have hs := Cert.ScatterRows.scatterAdd_rows_apply_of_fields (φ := .f32)
    scatter_S100000x256_S800000x1_S800000x256_1_0_0_1 rfl rfl rfl rfl
    (broadcastInDim S100000x256 ![] bcast_S_S100000x256 (constant S_ .f32 0x00000000#32))
    (broadcastInDim S800000x1 ![0] bcast_S800000_S800000x1_0 (dstW ei))
    (Host.gather gather_S100000x256_S800000x1_S800000x256_1_0_n_n_0_1_1256 HS
      (broadcastInDim S800000x1 ![0] bcast_S800000_S800000x1_0 (wsrcW ei))) i j
  rw [landing_eq] at hs
  unfold aggK
  rw [hs, zeros100000x256_apply]
  refine congrArg (fun t : EReal => zeroF + t) (Finset.sum_congr rfl fun e _ => ?_)
  rw [Cert.GatherRows.gather_rows_apply_of_fields (by decide) gather_S100000x256_S800000x1_S800000x256_1_0_n_n_0_1_1256
    rfl rfl rfl rfl rfl rfl rfl HS _ e j]
  refine congrArg (fun r : Fin 100000 => HS (ix2 r j)) (Fin.ext ?_)
  show min ((broadcastInDim S800000x1 ![0] bcast_S800000_S800000x1_0 (wsrcW ei)) (ix2 e (0 : Fin 1))).toInt.toNat 99999
    = min (wrap (ei (ix2 0 e))).toInt.toNat 99999
  rw [col800000_apply, wsrcW_apply]

theorem b1RowK_apply (b1 : FVec Ideal S256 .f32) (z : Fin 1) (j : Fin 256) : b1RowK b1 (ix2 z j) = b1 (ix1 j) := by
  unfold b1RowK
  exact shapeCast_a_1a_apply b1 shapeCasts_S256_S1x256 z j

/-- A column broadcast along the rows, read at `(i, j)`. -/
theorem rowBcast_apply {α : Type} (x : S100000x1.Idx → α) (i : Fin 100000) (j : Fin 256) :
    broadcastInDim S100000x256 ![0, 1] bcast_S100000x1_S100000x256_0_1 x (ix2 i j) = x (ix2 i (0 : Fin 1)) :=
  broadcastInDim_apply _ bcast_S100000x1_S100000x256_0_1 x (ix2 i j) (ix2 i (0 : Fin 1)) (fun a => match a with
    | ⟨0, _⟩ => by show i.val = if (100000 : Nat) = 1 then 0 else i.val; rw [if_neg (by decide)]
    | ⟨1, _⟩ => by show 0 = if (1 : Nat) = 1 then 0 else j.val; rw [if_pos rfl])

/-- A bias vector laid out as a row and broadcast down the rows, read at `(i, j)`. -/
theorem biasBcast_apply {α : Type} (b : S256.Idx → α) (i : Fin 100000) (j : Fin 256) :
    broadcastInDim S100000x256 ![0, 1] bcast_S1x256_S100000x256_0_1
      (broadcastInDim S1x256 ![1] bcast_S256_S1x256_1 b) (ix2 i j) = b (ix1 j) := by
  refine (broadcastInDim_apply _ bcast_S1x256_S100000x256_0_1 _ (ix2 i j) (ix2 (0 : Fin 1) j) (fun a => match a with
    | ⟨0, _⟩ => by show 0 = if (1 : Nat) = 1 then 0 else i.val; rw [if_pos rfl]
    | ⟨1, _⟩ => by show j.val = if (256 : Nat) = 1 then 0 else j.val; rw [if_neg (by decide)])).trans ?_
  exact broadcastInDim_apply _ bcast_S256_S1x256_1 b (ix2 (0 : Fin 1) j) (ix1 j) (fun a => match a with
    | ⟨0, _⟩ => by show j.val = if (256 : Nat) = 1 then 0 else j.val; rw [if_neg (by decide)])

/-- The tail over a layer's two outputs `h` and `h · dinv`, read at `(i, j)`, is the layer. -/
theorem tailK_apply (ei : IVec S2x800000 32) (H2 H2S : FVec Ideal S100000x256 .f32) (b2 : FVec Ideal S256 .f32)
    (h : Fin 100000 → Fin 256 → EReal) (hH : ∀ i j, H2 (ix2 i j) = h i j)
    (hHS : ∀ i j, H2S (ix2 i j) = h i j * dinv ei i) (i : Fin 100000) (j : Fin 256) :
    tailK ei H2 H2S b2 (ix2 i j) = layer ei h (fun j => b2 (ix1 j)) i j := by
  unfold tailK layer agg
  rw [addf_apply, addf_apply, mulf_apply, mulf_apply, rowBcast_apply, rowBcast_apply, biasBcast_apply, mulf_apply,
    dinvColK_apply, aggK_apply, hH]
  exact congrArg (fun t : EReal => dinv ei i * (zeroF + t) + dinv ei i * dinv ei i * h i j + b2 (ix1 j))
    (Finset.sum_congr rfl fun e _ => hHS (srcRow ei e) j)

end Cert.KernelIdeal.Val

end
-- ==== Proof.KPay.lean ====
/-
  What each pallas_call's body leaves in its output buffers, read at one element.

  Each body stores each of its two outputs once, whole. At the ideal instance the changes of float format are the
  identity and a matrix product into a zero accumulator is the plain sum over the contracted axis, so:
    • first call, output 0: (x · W)(p, q) = Σ_k x(p, k) · W(k, q); output 1: that times the row's `dinv`;
    • second call, output 0: (relu(pre) · W)(p, q) with pre(p, k) = dinv(p) · agg(p, k) + (dinv(p) · dinv(p)) · h(p, k) + b(k);
      output 1: that times the row's `dinv`.
  `p` is a row of the block, `dinv` the block's `[rows, 1]` column, `b` a `[1, 256]` row.
-/
import proofs.«103662_j74191265071481_2_alg».proof.Proof.Gen.KernelIdeal.Frame
import proofs.«103662_j74191265071481_2_alg».proof.Proof.GcnSpec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Val

open Cert.KernelIdeal Cert.KernelIdeal.Gen Idealize.ShloMosaic Idealize.ShloMosaic.ValueIdx Cert.Gcn

theorem off_zero2 : (![0, 0] : Fin 2 → Nat) = fun _ => 0 := funext fun a => by fin_cases a <;> rfl

/-! ## The two matrix products at an index -/

abbrev D0 : DotDims S4000x128 S128x256 S4000x256 := dot_S4000x128_S128x256_S4000x256_1_0_0_1_n_n
abbrev D1 : DotDims S2000x256 S256x256 S2000x256 := dot_S2000x256_S256x256_S2000x256_1_0_0_1_n_n

theorem D0_lhs0 (i : S4000x256.Idx) (q : D0.contr.Idx) : (D0.lhsIdx i q 0).val = (i 0).val := by
  unfold DotDims.lhsIdx
  rw [dif_neg (show ¬(0 : Fin S4000x128.rank) ∈ D0.lhsBatch by decide), dif_pos (show (0 : Fin S4000x128.rank) ∈ D0.lhsNonContracting by decide)]
  rfl
theorem D0_lhs1 (i : S4000x256.Idx) (q : D0.contr.Idx) : (D0.lhsIdx i q 1).val = (q ⟨0, by decide⟩).val :=
  D0.lhsIdx_val_of_single rfl i q
theorem D0_rhs0 (i : S4000x256.Idx) (q : D0.contr.Idx) : (D0.rhsIdx i q 0).val = (q ⟨0, by decide⟩).val :=
  D0.rhsIdx_val_of_single rfl i q
theorem D0_rhs1 (i : S4000x256.Idx) (q : D0.contr.Idx) : (D0.rhsIdx i q 1).val = (i 1).val := by
  unfold DotDims.rhsIdx
  rw [dif_neg (show ¬(1 : Fin S128x256.rank) ∈ D0.rhsBatch by decide), dif_pos (show (1 : Fin S128x256.rank) ∈ D0.rhsNonContracting by decide)]
  rfl

/-- The first call's product into zeros: row `p` of the left block against column `q` of the right. -/
theorem mm0_apply {φ₁ φ₂ : FTy} (l : FVec Ideal S4000x128 φ₁) (r : FVec Ideal S128x256 φ₂) (p : Fin 4000) (q : Fin 256) :
    matmul D0 none l r (constant S4000x256 .f32 0x00000000#32) (ix2 p q) = ∑ k : Fin 128, l (ix2 p k) * r (ix2 k q) := by
  refine (Ideal.matmul_constant_zero_apply D0 none l r (ix2 p q)).trans ?_
  rw [← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact D0_lhs0 _ _
    | ⟨1, _⟩ => exact (D0_lhs1 _ _).trans hk)
  have er : D0.rhsIdx (ix2 p q) ((contrEquiv1 D0 128 rfl rfl).symm k) = ix2 k q := funext fun a => Fin.ext (by
    match a with
    | ⟨0, _⟩ => exact (D0_rhs0 _ _).trans hk
    | ⟨1, _⟩ => exact D0_rhs1 _ _)
  rw [el, er]

theorem D1_lhs0 (i : S2000x256.Idx) (q : D1.contr.Idx) : (D1.lhsIdx i q 0).val = (i 0).val := by
  unfold DotDims.lhsIdx
  rw [dif_neg (show ¬(0 : Fin S2000x256.rank) ∈ D1.lhsBatch by decide), dif_pos (show (0 : Fin S2000x256.rank) ∈ D1.lhsNonContracting by decide)]
  rfl
theorem D1_lhs1 (i : S2000x256.Idx) (q : D1.contr.Idx) : (D1.lhsIdx i q 1).val = (q ⟨0, by decide⟩).val :=
  D1.lhsIdx_val_of_single rfl i q
theorem D1_rhs0 (i : S2000x256.Idx) (q : D1.contr.Idx) : (D1.rhsIdx i q 0).val = (q ⟨0, by decide⟩).val :=
  D1.rhsIdx_val_of_single rfl i q
theorem D1_rhs1 (i : S2000x256.Idx) (q : D1.contr.Idx) : (D1.rhsIdx i q 1).val = (i 1).val := by
  unfold DotDims.rhsIdx
  rw [dif_neg (show ¬(1 : Fin S256x256.rank) ∈ D1.rhsBatch by decide), dif_pos (show (1 : Fin S256x256.rank) ∈ D1.rhsNonContracting by decide)]
  rfl

/-- The second call's product into zeros. -/
theorem mm1_apply {φ₁ φ₂ : FTy} (l : FVec Ideal S2000x256 φ₁) (r : FVec Ideal S256x256 φ₂) (p : Fin 2000) (q : Fin 256) :
    matmul D1 none l r (constant S2000x256 .f32 0x00000000#32) (ix2 p q) = ∑ k : Fin 256, l (ix2 p k) * r (ix2 k q) := by
  refine (Ideal.matmul_constant_zero_apply D1 none l r (ix2 p q)).trans ?_
  rw [← Equiv.sum_comp (contrEquiv1 D1 256 rfl rfl).symm]
  refine Finset.sum_congr rfl fun k _ => ?_
  have hk := contrEquiv1_symm_val D1 256 rfl rfl k
  have el : D1.lhsIdx (ix2 p q) ((contrEquiv1 D1 256 rfl rfl).symm k) = ix2 p k := funext fun a => Fin.ext (by
    match a with
    | ⟨0, _⟩ => exact D1_lhs0 _ _
    | ⟨1, _⟩ => exact (D1_lhs1 _ _).trans hk)
  have er : D1.rhsIdx (ix2 p q) ((contrEquiv1 D1 256 rfl rfl).symm k) = ix2 k q := funext fun a => Fin.ext (by
    match a with
    | ⟨0, _⟩ => exact (D1_rhs0 _ _).trans hk
    | ⟨1, _⟩ => exact D1_rhs1 _ _)
  rw [el, er]

/-! ## A column and a row spread over a block, at an index -/

theorem col4000_apply (v : FVec Ideal S4000x1 .f32) (p : Fin 4000) (k : Fin 256) :
    broadcastTo S4000x256 v Facts₀.broadcasts_S4000x1_S4000x256 (ix2 p k) = v (ix2 p (0 : Fin 1)) :=
  broadcastTo_apply v Facts₀.broadcasts_S4000x1_S4000x256 (ix2 p k) (ix2 p (0 : Fin 1)) (fun a => by
    match a with
    | ⟨0, _⟩ => rfl
    | ⟨1, _⟩ => rfl)

theorem col2000_apply (v : FVec Ideal S2000x1 .f32) (p : Fin 2000) (k : Fin 256) :
    broadcastTo S2000x256 v Facts₀.broadcasts_S2000x1_S2000x256 (ix2 p k) = v (ix2 p (0 : Fin 1)) :=
  broadcastTo_apply v Facts₀.broadcasts_S2000x1_S2000x256 (ix2 p k) (ix2 p (0 : Fin 1)) (fun a => by
    match a with
    | ⟨0, _⟩ => rfl
    | ⟨1, _⟩ => rfl)

theorem row2000_apply (v : FVec Ideal S1x256 .f32) (p : Fin 2000) (k : Fin 256) :
    broadcastTo S2000x256 v Facts₀.broadcasts_S1x256_S2000x256 (ix2 p k) = v (ix2 (0 : Fin 1) k) :=
  broadcastTo_apply v Facts₀.broadcasts_S1x256_S2000x256 (ix2 p k) (ix2 (0 : Fin 1) k) (fun a => by
    match a with
    | ⟨0, _⟩ => rfl
    | ⟨1, _⟩ => rfl)

/-! ## The first call's outputs -/

/-- Output 0 of the first call: the product. -/
theorem out0_3_apply (x0 : Vec Ideal S4000x128 .f32) (x1 : Vec Ideal S128x256 .f32) (x2 : Vec Ideal S4000x1 .f32)
    (p : Fin 4000) (q : Fin 256) :
    out0_3 x0 x1 x2 (ix2 p q) = ∑ k : Fin 128, x0 (ix2 p k) * x1 (ix2 k q) := by
  unfold out0_3
  rw [View.canon_unit_zero off_zero2]
  simp only [View.ld_unit_zero (S := S4000x128) off_zero2, View.ld_unit_zero (S := S128x256) off_zero2]
  unfold k0_pay1
  exact (mm0_apply _ _ p q).trans (Finset.sum_congr rfl fun k _ => rfl)

/-- Output 1 of the first call: the product times the row's entry of the column. -/
theorem out0_4_apply (x0 : Vec Ideal S4000x128 .f32) (x1 : Vec Ideal S128x256 .f32) (x2 : Vec Ideal S4000x1 .f32)
    (p : Fin 4000) (q : Fin 256) :
    out0_4 x0 x1 x2 (ix2 p q) = (∑ k : Fin 128, x0 (ix2 p k) * x1 (ix2 k q)) * x2 (ix2 p (0 : Fin 1)) := by
  unfold out0_4
  rw [View.canon_unit_zero off_zero2]
  simp only [View.ld_unit_zero (S := S4000x128) off_zero2, View.ld_unit_zero (S := S128x256) off_zero2,
    View.ld_unit_zero (S := S4000x1) off_zero2]
  unfold k0_pay2
  show k0_pay1 x0 x1 (ix2 p q) * broadcastTo S4000x256 (shapeCast S4000x1 x2 Facts₀.shapeCasts_S4000x1_S4000x1) Facts₀.broadcasts_S4000x1_S4000x256 (ix2 p q) = _
  rw [col4000_apply, shapeCast_self]
  unfold k0_pay1
  exact congrArg (· * x2 (ix2 p (0 : Fin 1))) ((mm0_apply _ _ p q).trans (Finset.sum_congr rfl fun k _ => rfl))

/-! ## The second call's outputs -/

/-- What the second call feeds its product, at `(p, k)`: the rectified first layer. -/
def act (x0 x1 : Vec Ideal S2000x256 .f32) (x2 : Vec Ideal S2000x1 .f32) (x3 : Vec Ideal S1x256 .f32)
    (p : Fin 2000) (k : Fin 256) : EReal :=
  max (x2 (ix2 p (0 : Fin 1)) * x0 (ix2 p k) + x2 (ix2 p (0 : Fin 1)) * x2 (ix2 p (0 : Fin 1)) * x1 (ix2 p k)
    + x3 (ix2 (0 : Fin 1) k)) zeroF

/-- Output 0 of the second call. -/
theorem out1_5_apply (x0 x1 : Vec Ideal S2000x256 .f32) (x2 : Vec Ideal S2000x1 .f32) (x3 : Vec Ideal S1x256 .f32)
    (x4 : Vec Ideal S256x256 .f32) (p : Fin 2000) (q : Fin 256) :
    out1_5 x0 x1 x2 x3 x4 (ix2 p q) = ∑ k : Fin 256, act x0 x1 x2 x3 p k * x4 (ix2 k q) := by
  unfold out1_5
  rw [View.canon_unit_zero off_zero2]
  simp only [View.ld_unit_zero (S := S2000x256) off_zero2, View.ld_unit_zero (S := S2000x1) off_zero2,
    View.ld_unit_zero (S := S1x256) off_zero2, View.ld_unit_zero (S := S256x256) off_zero2]
  unfold k1_pay2
  refine (mm1_apply _ _ p q).trans (Finset.sum_congr rfl fun k _ => ?_)
  refine congrArg (· * x4 (ix2 k q)) ?_
  show max (broadcastTo S2000x256 (k1_pay1 x2) Facts₀.broadcasts_S2000x1_S2000x256 (ix2 p k) * shapeCast S2000x256 x0 Facts₀.shapeCasts_S2000x256_S2000x256 (ix2 p k)
      + broadcastTo S2000x256 (mulf (k1_pay1 x2) (k1_pay1 x2)) Facts₀.broadcasts_S2000x1_S2000x256 (ix2 p k) * shapeCast S2000x256 x1 Facts₀.shapeCasts_S2000x256_S2000x256 (ix2 p k)
      + broadcastTo S2000x256 (shapeCast S1x256 x3 Facts₀.shapeCasts_S1x256_S1x256) Facts₀.broadcasts_S1x256_S2000x256 (ix2 p k))
    (Ideal.ofBits .f32 0x00000000#32) = _
  rw [col2000_apply, col2000_apply, row2000_apply, shapeCast_self, shapeCast_self, shapeCast_self]
  unfold k1_pay1
  rw [shapeCast_self]
  rfl

/-- Output 1 of the second call: output 0 times the row's entry of the column. -/
theorem out1_6_apply (x0 x1 : Vec Ideal S2000x256 .f32) (x2 : Vec Ideal S2000x1 .f32) (x3 : Vec Ideal S1x256 .f32)
    (x4 : Vec Ideal S256x256 .f32) (p : Fin 2000) (q : Fin 256) :
    out1_6 x0 x1 x2 x3 x4 (ix2 p q) = (∑ k : Fin 256, act x0 x1 x2 x3 p k * x4 (ix2 k q)) * x2 (ix2 p (0 : Fin 1)) := by
  have h5 := out1_5_apply x0 x1 x2 x3 x4 p q
  unfold out1_5 at h5
  rw [View.canon_unit_zero off_zero2] at h5
  unfold out1_6
  rw [View.canon_unit_zero off_zero2]
  unfold k1_pay3
  show k1_pay2 _ _ _ _ _ (ix2 p q) * broadcastTo S2000x256 (k1_pay1 (View.ld x2 r1_0)) Facts₀.broadcasts_S2000x1_S2000x256 (ix2 p q) = _
  rw [h5, col2000_apply]
  unfold k1_pay1
  rw [shapeCast_self, View.ld_unit_zero (S := S2000x1) off_zero2]

end Cert.KernelIdeal.Val

end
-- ==== Proof.KRegion0.lean ====
/-
  The first pallas_call's two output arrays after its run, as whole-array functions of the arrays it found.

  The grid has 25 points; point `t` reads rows `4000 t … 4000 t + 3999` of `x` and of the `dinv` column, all of `W`, and
  writes the same rows of both outputs, all 256 columns. Row `r` of the outputs is therefore written by point
  `r / 4000` and by no other, and every row is written: output 0 ends at `x · W`, output 1 at `(x · W) · dinv` row by row.
-/
import proofs.«103662_j74191265071481_2_alg».proof.Proof.Gen.KernelIdeal.Frame
import proofs.«103662_j74191265071481_2_alg».proof.Proof.KPay
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- `x · W`, element `(r, q)`. -/
def prod0 (X : S100000x128.Idx → EReal) (W : S128x256.Idx → EReal) : S100000x256.Idx → EReal :=
  fun idx => ∑ k : Fin 128, X (ix2 (idx 0) k) * W (ix2 k (idx 1))

/-- `(x · W) · dinv`, row by row. -/
def prod0s (X : S100000x128.Idx → EReal) (W : S128x256.Idx → EReal) (D : S100000x1.Idx → EReal) : S100000x256.Idx → EReal :=
  fun idx => (∑ k : Fin 128, X (ix2 (idx 0) k) * W (ix2 k (idx 1))) * D (ix2 (idx 0) (0 : Fin 1))

/-- The printed index maps over the grid: the row windows move one block per point, `W`'s window stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The input blocks, read where the output's rows say -/

theorem read0_0 (c : Dev nD) (t : Fin cfg0.N) (p : Fin 4000) (k : Fin 128) (r : Fin 100000) (hr : r.val = t.val * 4000 + p.val) :
    iblk0 V c 0 t (ix2 p k) = V c main_arg0 (ix2 r k) := by
  show V c main_arg0 (((cfg0.win 0).blk t).view.emb (ix2 p k)) = V c main_arg0 (ix2 r k)
  refine congrArg (V c main_arg0) (funext fun a => Fin.ext ?_)
  obtain ⟨e0, e1, -⟩ := idx0 t
  match a with
  | ⟨0, _⟩ => show win0_0.index t (0 : Fin 2) * 4000 + 1 * p.val = r.val; omega
  | ⟨1, _⟩ => show win0_0.index t (1 : Fin 2) * 128 + 1 * k.val = k.val; omega

theorem read0_1 (c : Dev nD) (t : Fin cfg0.N) (k : Fin 128) (q : Fin 256) :
    iblk0 V c 1 t (ix2 k q) = V c main_arg2 (ix2 k q) := by
  show V c main_arg2 (((cfg0.win 1).blk t).view.emb (ix2 k q)) = V c main_arg2 (ix2 k q)
  refine congrArg (V c main_arg2) (funext fun a => Fin.ext ?_)
  obtain ⟨-, -, e2, e3, -⟩ := idx0 t
  match a with
  | ⟨0, _⟩ => show win0_1.index t (0 : Fin 2) * 128 + 1 * k.val = k.val; omega
  | ⟨1, _⟩ => show win0_1.index t (1 : Fin 2) * 256 + 1 * q.val = q.val; omega

theorem read0_2 (c : Dev nD) (t : Fin cfg0.N) (p : Fin 4000) (z : Fin 1) (r : Fin 100000) (hr : r.val = t.val * 4000 + p.val) :
    iblk0 V c 2 t (ix2 p z) = V c main_v14 (ix2 r (0 : Fin 1)) := by
  show V c main_v14 (((cfg0.win 2).blk t).view.emb (ix2 p z)) = V c main_v14 (ix2 r (0 : Fin 1))
  refine congrArg (V c main_v14) (funext fun a => Fin.ext ?_)
  obtain ⟨-, -, -, -, e4, e5, -⟩ := idx0 t
  have hz : z.val = 0 := by omega
  match a with
  | ⟨0, _⟩ => show win0_2.index t (0 : Fin 2) * 4000 + 1 * p.val = r.val; omega
  | ⟨1, _⟩ => show win0_2.index t (1 : Fin 2) * 1 + 1 * z.val = 0; omega

/-! ## What a point writes back -/

/-- Point `t` writes back block `t` of `x · W`. -/
theorem flushed0_3_eq (c : Dev nD) (t : Fin cfg0.N) :
    (dat0 V c).flushed 3 t = ((cfg0.win 3).blk t).view.read (Elt Ideal) (prod0 (V c main_arg0) (V c main_arg2)) := by
  show (cfg0.win 3).cut (grid0.coords t) ((dat0 V c).after 3 t) = _
  rw [after0_3]
  funext y
  obtain ⟨p, q, rfl⟩ : ∃ (p : Fin 4000) (q : Fin 256), y = ix2 p q := ⟨y 0, y 1, eq_ix2 y⟩
  have ht : t.val < 25 := lt_of_lt_of_eq t.isLt N_0
  obtain ⟨-, -, -, -, -, -, e6, e7, -⟩ := idx0 t
  have hemb : ((cfg0.win 3).blk t).view.emb (ix2 p q) = ix2 (⟨t.val * 4000 + p.val, by omega⟩ : Fin 100000) q := by
    funext a; apply Fin.ext
    match a with
    | ⟨0, _⟩ => show win0_3.index t (0 : Fin 2) * 4000 + 1 * p.val = t.val * 4000 + p.val; omega
    | ⟨1, _⟩ => show win0_3.index t (1 : Fin 2) * 256 + 1 * q.val = q.val; omega
  show out0_3 (iblk0 V c 0 t) (iblk0 V c 1 t) (iblk0 V c 2 t) (ix2 p q)
    = prod0 (V c main_arg0) (V c main_arg2) (((cfg0.win 3).blk t).view.emb (ix2 p q))
  rw [hemb]
  refine (out0_3_apply (iblk0 V c 0 t) (iblk0 V c 1 t) (iblk0 V c 2 t) p q).trans ?_
  refine Finset.sum_congr rfl fun k _ => ?_
  rw [read0_0 V c t p k ⟨t.val * 4000 + p.val, by omega⟩ rfl, read0_1 V c t k q]

/-- Point `t` writes back block `t` of `(x · W) · dinv`. -/
theorem flushed0_4_eq (c : Dev nD) (t : Fin cfg0.N) :
    (dat0 V c).flushed 4 t = ((cfg0.win 4).blk t).view.read (Elt Ideal) (prod0s (V c main_arg0) (V c main_arg2) (V c main_v14)) := by
  show (cfg0.win 4).cut (grid0.coords t) ((dat0 V c).after 4 t) = _
  rw [after0_4]
  funext y
  obtain ⟨p, q, rfl⟩ : ∃ (p : Fin 4000) (q : Fin 256), y = ix2 p q := ⟨y 0, y 1, eq_ix2 y⟩
  have ht : t.val < 25 := lt_of_lt_of_eq t.isLt N_0
  obtain ⟨-, -, -, -, -, -, -, -, e8, e9⟩ := idx0 t
  have hemb : ((cfg0.win 4).blk t).view.emb (ix2 p q) = ix2 (⟨t.val * 4000 + p.val, by omega⟩ : Fin 100000) q := by
    funext a; apply Fin.ext
    match a with
    | ⟨0, _⟩ => show win0_4.index t (0 : Fin 2) * 4000 + 1 * p.val = t.val * 4000 + p.val; omega
    | ⟨1, _⟩ => show win0_4.index t (1 : Fin 2) * 256 + 1 * q.val = q.val; omega
  show out0_4 (iblk0 V c 0 t) (iblk0 V c 1 t) (iblk0 V c 2 t) (ix2 p q)
    = prod0s (V c main_arg0) (V c main_arg2) (V c main_v14) (((cfg0.win 4).blk t).view.emb (ix2 p q))
  rw [hemb]
  refine (out0_4_apply (iblk0 V c 0 t) (iblk0 V c 1 t) (iblk0 V c 2 t) p q).trans ?_
  rw [read0_2 V c t p (0 : Fin 1) ⟨t.val * 4000 + p.val, by omega⟩ rfl]
  refine congrArg (· * V c main_v14 (ix2 (⟨t.val * 4000 + p.val, by omega⟩ : Fin 100000) (0 : Fin 1))) ?_
  refine Finset.sum_congr rfl fun k _ => ?_
  rw [read0_0 V c t p k ⟨t.val * 4000 + p.val, by omega⟩ rfl, read0_1 V c t k q]

/-! ## Every row is some point's -/

theorem mem_blk0_3 (t : Fin cfg0.N) (i : S100000x256.Idx) :
    i ∈ ((cfg0.win 3).blk t).view.set ↔ ∀ a : Fin 2, win0_3.index t a * S4000x256.size a ≤ (i a).val ∧ (i a).val < win0_3.index t a * S4000x256.size a + S4000x256.size a := by
  show i ∈ ((View.whole main_v15_0).slice (win0_3.rect t)).set ↔ _
  rw [View.set_slice_whole, Rect.mem_set_unit]
  exact Iff.rfl

theorem mem_blk0_4 (t : Fin cfg0.N) (i : S100000x256.Idx) :
    i ∈ ((cfg0.win 4).blk t).view.set ↔ ∀ a : Fin 2, win0_4.index t a * S4000x256.size a ≤ (i a).val ∧ (i a).val < win0_4.index t a * S4000x256.size a + S4000x256.size a := by
  show i ∈ ((View.whole main_v15_1).slice (win0_4.rect t)).set ↔ _
  rw [View.set_slice_whole, Rect.mem_set_unit]
  exact Iff.rfl

theorem covered0_3 (i : S100000x256.Idx) : ∃ t : Fin cfg0.N, (cfg0.win 3).flush t = true ∧ i ∈ ((cfg0.win 3).blk t).view.set := by
  have hi0 : (i 0).val < 100000 := (i 0).isLt
  have hi1 : (i 1).val < 256 := (i 1).isLt
  have hN : cfg0.N = 25 := N_0
  have htl : (i 0).val / 4000 < cfg0.N := by rw [hN]; omega
  refine ⟨⟨(i 0).val / 4000, htl⟩, flush0_3 _, ?_⟩
  rw [mem_blk0_3]
  obtain ⟨-, -, -, -, -, -, e6, e7, -⟩ := idx0 ⟨(i 0).val / 4000, htl⟩
  have e6' : win0_3.index ⟨(i 0).val / 4000, htl⟩ (0 : Fin 2) = (i 0).val / 4000 := e6
  intro a
  match a with
  | ⟨0, _⟩ =>
    show win0_3.index ⟨(i 0).val / 4000, htl⟩ (0 : Fin 2) * 4000 ≤ (i 0).val ∧ (i 0).val < win0_3.index ⟨(i 0).val / 4000, htl⟩ (0 : Fin 2) * 4000 + 4000
    omega
  | ⟨1, _⟩ =>
    show win0_3.index ⟨(i 0).val / 4000, htl⟩ (1 : Fin 2) * 256 ≤ (i 1).val ∧ (i 1).val < win0_3.index ⟨(i 0).val / 4000, htl⟩ (1 : Fin 2) * 256 + 256
    omega

theorem covered0_4 (i : S100000x256.Idx) : ∃ t : Fin cfg0.N, (cfg0.win 4).flush t = true ∧ i ∈ ((cfg0.win 4).blk t).view.set := by
  have hi0 : (i 0).val < 100000 := (i 0).isLt
  have hi1 : (i 1).val < 256 := (i 1).isLt
  have hN : cfg0.N = 25 := N_0
  have htl : (i 0).val / 4000 < cfg0.N := by rw [hN]; omega
  refine ⟨⟨(i 0).val / 4000, htl⟩, flush0_4 _, ?_⟩
  rw [mem_blk0_4]
  obtain ⟨-, -, -, -, -, -, -, -, e8, e9⟩ := idx0 ⟨(i 0).val / 4000, htl⟩
  have e8' : win0_4.index ⟨(i 0).val / 4000, htl⟩ (0 : Fin 2) = (i 0).val / 4000 := e8
  intro a
  match a with
  | ⟨0, _⟩ =>
    show win0_4.index ⟨(i 0).val / 4000, htl⟩ (0 : Fin 2) * 4000 ≤ (i 0).val ∧ (i 0).val < win0_4.index ⟨(i 0).val / 4000, htl⟩ (0 : Fin 2) * 4000 + 4000
    omega
  | ⟨1, _⟩ =>
    show win0_4.index ⟨(i 0).val / 4000, htl⟩ (1 : Fin 2) * 256 ≤ (i 1).val ∧ (i 1).val < win0_4.index ⟨(i 0).val / 4000, htl⟩ (1 : Fin 2) * 256 + 256
    omega

/-! ## The arrays after the run -/

/-- Output 0 ends at `x · W`. -/
theorem final0_3 (c : Dev nD) : (dat0 V c).arrAt 3 cfg0.N = prod0 (V c main_arg0) (V c main_arg2) :=
  (dat0 V c).arrAt_eq_of_cover 3 (prod0 (V c main_arg0) (V c main_arg2)) (fun t _ => flushed0_3_eq V c t) covered0_3

/-- Output 1 ends at `(x · W) · dinv`. -/
theorem final0_4 (c : Dev nD) : (dat0 V c).arrAt 4 cfg0.N = prod0s (V c main_arg0) (V c main_arg2) (V c main_v14) :=
  (dat0 V c).arrAt_eq_of_cover 4 (prod0s (V c main_arg0) (V c main_arg2) (V c main_v14)) (fun t _ => flushed0_4_eq V c t) covered0_4

end Cert.KernelIdeal.Val

end
-- ==== Proof.KRegion1.lean ====
/-
  The second pallas_call's two output arrays after its run, as whole-array functions of the arrays it found.

  The grid has 50 points; point `t` reads rows `2000 t … 2000 t + 1999` of the aggregate, of the first layer's linear
  output and of the `dinv` column, the whole bias row and the whole of `W2`, and writes the same rows of both outputs.
  Row `r` of the outputs is written by point `r / 2000` alone, and every row is written: output 0 ends at
  `relu(dinv · agg + (dinv · dinv) · h + b) · W2`, output 1 at that times `dinv`, row by row.
-/
import proofs.«103662_j74191265071481_2_alg».proof.Proof.Gen.KernelIdeal.Frame
import proofs.«103662_j74191265071481_2_alg».proof.Proof.KPay
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Idealize.ShloMosaic Idealize.ShloMosaic.TcCoe Idealize.ShloMosaic.ValueIdx Cert.Gcn
open Idealize.SL.Sem
open Idealize.ShloMosaic.Pipeline (Dat Cfg Window)

variable (V : (c : Dev nD) → (b : Ref sig .tc) → Buf (Elt Ideal) ((c : Thread nD τ).loc b))

/-- The rectified first layer at `(r, k)`, from the aggregate `A`, the linear output `Hh`, the column `D` and the bias row `B`. -/
def act1 (A Hh : S100000x256.Idx → EReal) (D : S100000x1.Idx → EReal) (B : S1x256.Idx → EReal)
    (r : Fin 100000) (k : Fin 256) : EReal :=
  max (D (ix2 r (0 : Fin 1)) * A (ix2 r k) + D (ix2 r (0 : Fin 1)) * D (ix2 r (0 : Fin 1)) * Hh (ix2 r k)
    + B (ix2 (0 : Fin 1) k)) zeroF

/-- `relu(…) · W2`, element `(r, q)`. -/
def prod1 (A Hh : S100000x256.Idx → EReal) (D : S100000x1.Idx → EReal) (B : S1x256.Idx → EReal)
    (W : S256x256.Idx → EReal) : S100000x256.Idx → EReal :=
  fun idx => ∑ k : Fin 256, act1 A Hh D B (idx 0) k * W (ix2 k (idx 1))

/-- The same times `dinv`, row by row. -/
def prod1s (A Hh : S100000x256.Idx → EReal) (D : S100000x1.Idx → EReal) (B : S1x256.Idx → EReal)
    (W : S256x256.Idx → EReal) : S100000x256.Idx → EReal :=
  fun idx => (∑ k : Fin 256, act1 A Hh D B (idx 0) k * W (ix2 k (idx 1))) * D (ix2 (idx 0) (0 : Fin 1))

/-- The printed index maps over the grid: the row windows move one block per point, the bias row's and `W2`'s stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-! ## The input blocks, read where the output's rows say -/

theorem read1_0 (c : Dev nD) (t : Fin cfg1.N) (p : Fin 2000) (k : Fin 256) (r : Fin 100000) (hr : r.val = t.val * 2000 + p.val) :
    iblk1 V c 0 t (ix2 p k) = V c main_v25 (ix2 r k) := by
  show V c main_v25 (((cfg1.win 0).blk t).view.emb (ix2 p k)) = V c main_v25 (ix2 r k)
  refine congrArg (V c main_v25) (funext fun a => Fin.ext ?_)
  obtain ⟨e0, e1, -⟩ := idx1 t
  match a with
  | ⟨0, _⟩ => show win1_0.index t (0 : Fin 2) * 2000 + 1 * p.val = r.val; omega
  | ⟨1, _⟩ => show win1_0.index t (1 : Fin 2) * 256 + 1 * k.val = k.val; omega

theorem read1_1 (c : Dev nD) (t : Fin cfg1.N) (p : Fin 2000) (k : Fin 256) (r : Fin 100000) (hr : r.val = t.val * 2000 + p.val) :
    iblk1 V c 1 t (ix2 p k) = V c main_v15_0 (ix2 r k) := by
  show V c main_v15_0 (((cfg1.win 1).blk t).view.emb (ix2 p k)) = V c main_v15_0 (ix2 r k)
  refine congrArg (V c main_v15_0) (funext fun a => Fin.ext ?_)
  obtain ⟨-, -, e2, e3, -⟩ := idx1 t
  match a with
  | ⟨0, _⟩ => show win1_1.index t (0 : Fin 2) * 2000 + 1 * p.val = r.val; omega
  | ⟨1, _⟩ => show win1_1.index t (1 : Fin 2) * 256 + 1 * k.val = k.val; omega

theorem read1_2 (c : Dev nD) (t : Fin cfg1.N) (p : Fin 2000) (z : Fin 1) (r : Fin 100000) (hr : r.val = t.val * 2000 + p.val) :
    iblk1 V c 2 t (ix2 p z) = V c main_v14 (ix2 r (0 : Fin 1)) := by
  show V c main_v14 (((cfg1.win 2).blk t).view.emb (ix2 p z)) = V c main_v14 (ix2 r (0 : Fin 1))
  refine congrArg (V c main_v14) (funext fun a => Fin.ext ?_)
  obtain ⟨-, -, -, -, e4, e5, -⟩ := idx1 t
  have hz : z.val = 0 := by omega
  match a with
  | ⟨0, _⟩ => show win1_2.index t (0 : Fin 2) * 2000 + 1 * p.val = r.val; omega
  | ⟨1, _⟩ => show win1_2.index t (1 : Fin 2) * 1 + 1 * z.val = 0; omega

theorem read1_3 (c : Dev nD) (t : Fin cfg1.N) (z : Fin 1) (k : Fin 256) :
    iblk1 V c 3 t (ix2 z k) = V c main_v26 (ix2 (0 : Fin 1) k) := by
  show V c main_v26 (((cfg1.win 3).blk t).view.emb (ix2 z k)) = V c main_v26 (ix2 (0 : Fin 1) k)
  refine congrArg (V c main_v26) (funext fun a => Fin.ext ?_)
  obtain ⟨-, -, -, -, -, -, e6, e7, -⟩ := idx1 t
  have hz : z.val = 0 := by omega
  match a with
  | ⟨0, _⟩ => show win1_3.index t (0 : Fin 2) * 1 + 1 * z.val = 0; omega
  | ⟨1, _⟩ => show win1_3.index t (1 : Fin 2) * 256 + 1 * k.val = k.val; omega

theorem read1_4 (c : Dev nD) (t : Fin cfg1.N) (k : Fin 256) (q : Fin 256) :
    iblk1 V c 4 t (ix2 k q) = V c main_arg4 (ix2 k q) := by
  show V c main_arg4 (((cfg1.win 4).blk t).view.emb (ix2 k q)) = V c main_arg4 (ix2 k q)
  refine congrArg (V c main_arg4) (funext fun a => Fin.ext ?_)
  obtain ⟨-, -, -, -, -, -, -, -, e8, e9, -⟩ := idx1 t
  match a with
  | ⟨0, _⟩ => show win1_4.index t (0 : Fin 2) * 256 + 1 * k.val = k.val; omega
  | ⟨1, _⟩ => show win1_4.index t (1 : Fin 2) * 256 + 1 * q.val = q.val; omega

/-- The rectified first layer of a block is that of the arrays at the block's rows. -/
theorem act_blk (c : Dev nD) (t : Fin cfg1.N) (p : Fin 2000) (k : Fin 256) (r : Fin 100000) (hr : r.val = t.val * 2000 + p.val) :
    act (iblk1 V c 0 t) (iblk1 V c 1 t) (iblk1 V c 2 t) (iblk1 V c 3 t) p k
      = act1 (V c main_v25) (V c main_v15_0) (V c main_v14) (V c main_v26) r k := by
  unfold act act1
  rw [read1_0 V c t p k r hr, read1_1 V c t p k r hr, read1_2 V c t p (0 : Fin 1) r hr, read1_3 V c t (0 : Fin 1) k]

/-! ## What a point writes back -/

theorem flushed1_5_eq (c : Dev nD) (t : Fin cfg1.N) :
    (dat1 V c).flushed 5 t = ((cfg1.win 5).blk t).view.read (Elt Ideal)
      (prod1 (V c main_v25) (V c main_v15_0) (V c main_v14) (V c main_v26) (V c main_arg4)) := by
  show (cfg1.win 5).cut (grid1.coords t) ((dat1 V c).after 5 t) = _
  rw [after1_5]
  funext y
  obtain ⟨p, q, rfl⟩ : ∃ (p : Fin 2000) (q : Fin 256), y = ix2 p q := ⟨y 0, y 1, eq_ix2 y⟩
  have ht : t.val < 50 := lt_of_lt_of_eq t.isLt N_1
  obtain ⟨-, -, -, -, -, -, -, -, -, -, e10, e11, -⟩ := idx1 t
  have hemb : ((cfg1.win 5).blk t).view.emb (ix2 p q) = ix2 (⟨t.val * 2000 + p.val, by omega⟩ : Fin 100000) q := by
    funext a; apply Fin.ext
    match a with
    | ⟨0, _⟩ => show win1_5.index t (0 : Fin 2) * 2000 + 1 * p.val = t.val * 2000 + p.val; omega
    | ⟨1, _⟩ => show win1_5.index t (1 : Fin 2) * 256 + 1 * q.val = q.val; omega
  show out1_5 (iblk1 V c 0 t) (iblk1 V c 1 t) (iblk1 V c 2 t) (iblk1 V c 3 t) (iblk1 V c 4 t) (ix2 p q)
    = prod1 (V c main_v25) (V c main_v15_0) (V c main_v14) (V c main_v26) (V c main_arg4) (((cfg1.win 5).blk t).view.emb (ix2 p q))
  rw [hemb]
  refine (out1_5_apply (iblk1 V c 0 t) (iblk1 V c 1 t) (iblk1 V c 2 t) (iblk1 V c 3 t) (iblk1 V c 4 t) p q).trans ?_
  refine Finset.sum_congr rfl fun k _ => ?_
  rw [act_blk V c t p k ⟨t.val * 2000 + p.val, by omega⟩ rfl, read1_4 V c t k q]

theorem flushed1_6_eq (c : Dev nD) (t : Fin cfg1.N) :
    (dat1 V c).flushed 6 t = ((cfg1.win 6).blk t).view.read (Elt Ideal)
      (prod1s (V c main_v25) (V c main_v15_0) (V c main_v14) (V c main_v26) (V c main_arg4)) := by
  show (cfg1.win 6).cut (grid1.coords t) ((dat1 V c).after 6 t) = _
  rw [after1_6]
  funext y
  obtain ⟨p, q, rfl⟩ : ∃ (p : Fin 2000) (q : Fin 256), y = ix2 p q := ⟨y 0, y 1, eq_ix2 y⟩
  have ht : t.val < 50 := lt_of_lt_of_eq t.isLt N_1
  obtain ⟨-, -, -, -, -, -, -, -, -, -, -, -, e12, e13⟩ := idx1 t
  have hemb : ((cfg1.win 6).blk t).view.emb (ix2 p q) = ix2 (⟨t.val * 2000 + p.val, by omega⟩ : Fin 100000) q := by
    funext a; apply Fin.ext
    match a with
    | ⟨0, _⟩ => show win1_6.index t (0 : Fin 2) * 2000 + 1 * p.val = t.val * 2000 + p.val; omega
    | ⟨1, _⟩ => show win1_6.index t (1 : Fin 2) * 256 + 1 * q.val = q.val; omega
  show out1_6 (iblk1 V c 0 t) (iblk1 V c 1 t) (iblk1 V c 2 t) (iblk1 V c 3 t) (iblk1 V c 4 t) (ix2 p q)
    = prod1s (V c main_v25) (V c main_v15_0) (V c main_v14) (V c main_v26) (V c main_arg4) (((cfg1.win 6).blk t).view.emb (ix2 p q))
  rw [hemb]
  refine (out1_6_apply (iblk1 V c 0 t) (iblk1 V c 1 t) (iblk1 V c 2 t) (iblk1 V c 3 t) (iblk1 V c 4 t) p q).trans ?_
  rw [read1_2 V c t p (0 : Fin 1) ⟨t.val * 2000 + p.val, by omega⟩ rfl]
  refine congrArg (· * V c main_v14 (ix2 (⟨t.val * 2000 + p.val, by omega⟩ : Fin 100000) (0 : Fin 1))) ?_
  refine Finset.sum_congr rfl fun k _ => ?_
  rw [act_blk V c t p k ⟨t.val * 2000 + p.val, by omega⟩ rfl, read1_4 V c t k q]

/-! ## Every row is some point's -/

theorem mem_blk1_5 (t : Fin cfg1.N) (i : S100000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v27_0).slice (win1_5.rect t)).set ↔ _
  rw [View.set_slice_whole, Rect.mem_set_unit]
  exact Iff.rfl

theorem mem_blk1_6 (t : Fin cfg1.N) (i : S100000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v27_1).slice (win1_6.rect t)).set ↔ _
  rw [View.set_slice_whole, Rect.mem_set_unit]
  exact Iff.rfl

theorem covered1_5 (i : S100000x256.Idx) : ∃ t : Fin cfg1.N, (cfg1.win 5).flush t = true ∧ i ∈ ((cfg1.win 5).blk t).view.set := by
  have hi0 : (i 0).val < 100000 := (i 0).isLt
  have hi1 : (i 1).val < 256 := (i 1).isLt
  have hN : cfg1.N = 50 := N_1
  have htl : (i 0).val / 2000 < cfg1.N := by rw [hN]; omega
  refine ⟨⟨(i 0).val / 2000, htl⟩, flush1_5 _, ?_⟩
  rw [mem_blk1_5]
  obtain ⟨-, -, -, -, -, -, -, -, -, -, e10, e11, -⟩ := idx1 ⟨(i 0).val / 2000, htl⟩
  have e10' : win1_5.index ⟨(i 0).val / 2000, htl⟩ (0 : Fin 2) = (i 0).val / 2000 := e10
  intro a
  match a with
  | ⟨0, _⟩ =>
    show win1_5.index ⟨(i 0).val / 2000, htl⟩ (0 : Fin 2) * 2000 ≤ (i 0).val ∧ (i 0).val < win1_5.index ⟨(i 0).val / 2000, htl⟩ (0 : Fin 2) * 2000 + 2000
    omega
  | ⟨1, _⟩ =>
    show win1_5.index ⟨(i 0).val / 2000, htl⟩ (1 : Fin 2) * 256 ≤ (i 1).val ∧ (i 1).val < win1_5.index ⟨(i 0).val / 2000, htl⟩ (1 : Fin 2) * 256 + 256
    omega

theorem covered1_6 (i : S100000x256.Idx) : ∃ t : Fin cfg1.N, (cfg1.win 6).flush t = true ∧ i ∈ ((cfg1.win 6).blk t).view.set := by
  have hi0 : (i 0).val < 100000 := (i 0).isLt
  have hi1 : (i 1).val < 256 := (i 1).isLt
  have hN : cfg1.N = 50 := N_1
  have htl : (i 0).val / 2000 < cfg1.N := by rw [hN]; omega
  refine ⟨⟨(i 0).val / 2000, htl⟩, flush1_6 _, ?_⟩
  rw [mem_blk1_6]
  obtain ⟨-, -, -, -, -, -, -, -, -, -, -, -, e12, e13⟩ := idx1 ⟨(i 0).val / 2000, htl⟩
  have e12' : win1_6.index ⟨(i 0).val / 2000, htl⟩ (0 : Fin 2) = (i 0).val / 2000 := e12
  intro a
  match a with
  | ⟨0, _⟩ =>
    show win1_6.index ⟨(i 0).val / 2000, htl⟩ (0 : Fin 2) * 2000 ≤ (i 0).val ∧ (i 0).val < win1_6.index ⟨(i 0).val / 2000, htl⟩ (0 : Fin 2) * 2000 + 2000
    omega
  | ⟨1, _⟩ =>
    show win1_6.index ⟨(i 0).val / 2000, htl⟩ (1 : Fin 2) * 256 ≤ (i 1).val ∧ (i 1).val < win1_6.index ⟨(i 0).val / 2000, htl⟩ (1 : Fin 2) * 256 + 256
    omega

/-! ## The arrays after the run -/

theorem final1_5 (c : Dev nD) : (dat1 V c).arrAt 5 cfg1.N
    = prod1 (V c main_v25) (V c main_v15_0) (V c main_v14) (V c main_v26) (V c main_arg4) :=
  (dat1 V c).arrAt_eq_of_cover 5 _ (fun t _ => flushed1_5_eq V c t) covered1_5

theorem final1_6 (c : Dev nD) : (dat1 V c).arrAt 6 cfg1.N
    = prod1s (V c main_v25) (V c main_v15_0) (V c main_v14) (V c main_v26) (V c main_arg4) :=
  (dat1 V c).arrAt_eq_of_cover 6 _ (fun t _ => flushed1_6_eq V c t) covered1_6

end Cert.KernelIdeal.Val

end
-- ==== Proof.KValue.lean ====
/-
  The idealized kernel's composed value is `Cert.Gcn.G`.

  Put the pieces in program order: the first call leaves `x · W1` and `(x · W1) · dinv`; the host gathers and scatters the
  second into the aggregate; the second call takes the aggregate, the first, the `dinv` column and the bias row to
  `relu(layer) · W2` and that times `dinv`; the host aggregates again and closes the second layer. Read at `(i, j)`, each
  piece is the specification's function of the same name, with no algebra in between: the specification was written in
  the kernel's arrangement.
-/
import proofs.«103662_j74191265071481_2_alg».proof.Proof.KHostVals
import proofs.«103662_j74191265071481_2_alg».proof.Proof.KRegion0
import proofs.«103662_j74191265071481_2_alg».proof.Proof.KRegion1
import proofs.«103662_j74191265071481_2_alg».proof.Proof.GcnSpec

set_option maxRecDepth 16384

noncomputable section

open scoped BigOperators

namespace Cert.KernelIdeal.Val

open Cert.KernelIdeal Idealize.ShloMosaic Idealize.ShloMosaic.ValueIdx Cert.Gcn

section
variable (X : FVec Ideal S100000x128 .f32) (ei : IVec S2x800000 32) (W1 : FVec Ideal S128x256 .f32)
  (b1 : FVec Ideal S256 .f32) (W2 : FVec Ideal S256x256 .f32) (b2 : FVec Ideal S256 .f32)

/-- The arguments as the specification takes them. -/
abbrev xs : Fin 100000 → Fin 128 → EReal := fun i k => X (ix2 i k)
abbrev w1s : Fin 128 → Fin 256 → EReal := fun k j => W1 (ix2 k j)
abbrev b1s : Fin 256 → EReal := fun j => b1 (ix1 j)
abbrev w2s : Fin 256 → Fin 256 → EReal := fun k j => W2 (ix2 k j)
abbrev b2s : Fin 256 → EReal := fun j => b2 (ix1 j)

/-- The first call's two outputs and the aggregate of the second. -/
abbrev H1 : FVec Ideal S100000x256 .f32 := prod0 X W1
abbrev H1S : FVec Ideal S100000x256 .f32 := prod0s X W1 (dinvColK ei)
abbrev A1 : FVec Ideal S100000x256 .f32 := aggK ei (H1S X ei W1)
/-- The second call's two outputs. -/
abbrev H2 : FVec Ideal S100000x256 .f32 := prod1 (A1 X ei W1) (H1 X W1) (dinvColK ei) (b1RowK b1) W2
abbrev H2S : FVec Ideal S100000x256 .f32 := prod1s (A1 X ei W1) (H1 X W1) (dinvColK ei) (b1RowK b1) W2

theorem H1_apply (i : Fin 100000) (j : Fin 256) : H1 X W1 (ix2 i j) = mm (xs X) (w1s W1) i j := rfl

theorem H1S_apply (i : Fin 100000) (j : Fin 256) : H1S X ei W1 (ix2 i j) = mm (xs X) (w1s W1) i j * dinv ei i := by
  show (∑ k : Fin 128, X (ix2 i k) * W1 (ix2 k j)) * dinvColK ei (ix2 i (0 : Fin 1)) = _
  rw [dinvColK_apply]
  rfl

theorem A1_apply (i : Fin 100000) (j : Fin 256) : A1 X ei W1 (ix2 i j) = agg ei (mm (xs X) (w1s W1)) i j := by
  show aggK ei (H1S X ei W1) (ix2 i j) = _
  rw [aggK_apply]
  unfold agg
  exact congrArg (zeroF + ·) (Finset.sum_congr rfl fun e _ => H1S_apply X ei W1 (srcRow ei e) j)

/-- What the second call feeds its product is the specification's hidden layer. -/
theorem act1_apply (i : Fin 100000) (k : Fin 256) :
    act1 (A1 X ei W1) (H1 X W1) (dinvColK ei) (b1RowK b1) i k = Cert.Gcn.hidden ei (xs X) (w1s W1) (b1s b1) i k := by
  unfold act1 Cert.Gcn.hidden relu layer
  rw [dinvColK_apply, A1_apply, H1_apply, b1RowK_apply]

theorem H2_apply (i : Fin 100000) (j : Fin 256) :
    H2 X ei W1 b1 W2 (ix2 i j) = mm (Cert.Gcn.hidden ei (xs X) (w1s W1) (b1s b1)) (w2s W2) i j := by
  show (∑ k : Fin 256, act1 (A1 X ei W1) (H1 X W1) (dinvColK ei) (b1RowK b1) i k * W2 (ix2 k j)) = _
  unfold mm
  exact Finset.sum_congr rfl fun k _ => by rw [act1_apply]

theorem H2S_apply (i : Fin 100000) (j : Fin 256) :
    H2S X ei W1 b1 W2 (ix2 i j) = mm (Cert.Gcn.hidden ei (xs X) (w1s W1) (b1s b1)) (w2s W2) i j * dinv ei i := by
  show (∑ k : Fin 256, act1 (A1 X ei W1) (H1 X W1) (dinvColK ei) (b1RowK b1) i k * W2 (ix2 k j)) * dinvColK ei (ix2 i (0 : Fin 1)) = _
  rw [dinvColK_apply]
  refine congrArg (· * dinv ei i) ?_
  unfold mm
  exact Finset.sum_congr rfl fun k _ => by rw [act1_apply]

/-- THE KERNEL'S VALUE: the tail over the second call's outputs is `G` of the arguments. -/
theorem kernel_value :
    tailK ei (H2 X ei W1 b1 W2) (H2S X ei W1 b1 W2) b2 = G X ei W1 b1 W2 b2 := by
  funext idx
  obtain ⟨i, j, rfl⟩ : ∃ (i : Fin 100000) (j : Fin 256), idx = ix2 i j := ⟨idx 0, idx 1, eq_ix2 idx⟩
  rw [tailK_apply ei (H2 X ei W1 b1 W2) (H2S X ei W1 b1 W2) b2 (mm (Cert.Gcn.hidden ei (xs X) (w1s W1) (b1s b1)) (w2s W2))
    (H2_apply X ei W1 b1 W2) (H2S_apply X ei W1 b1 W2) i j]
  rfl
end

end Cert.KernelIdeal.Val

end
-- ==== Proof.KChain.lean ====
/-
  The idealized kernel's buffer contents, boundary by boundary, down to its result.

  The generated frame names the TensorCore's contents at each boundary of @main: `W3` when the first pallas_call is
  entered, `W4` when it is left, `W5` / `W6` around the second, `W7` at the return. A host stretch computes its results
  from the contents before it; a pallas_call leaves each output array at what its write-backs fold to and touches no other
  buffer. Following the buffers each stage reads:
    W3: the edge list's two rows, the `dinv` column, the arguments;
    W4: `x · W1` and `(x · W1) · dinv`;
    W5: the aggregate of the latter, the bias row;
    W6: `relu(layer) · W2` and that times `dinv`;
    W7: the result, the last stretch's `dinv · agg + (dinv · dinv) · h + b` of those.
-/
import proofs.«103662_j74191265071481_2_alg».proof.Proof.Gen.KernelIdeal.Frame
import proofs.«103662_j74191265071481_2_alg».proof.Proof.KHostVals
import proofs.«103662_j74191265071481_2_alg».proof.Proof.KRegion0
import proofs.«103662_j74191265071481_2_alg».proof.Proof.KRegion1
import proofs.«103662_j74191265071481_2_alg».proof.Proof.KValue
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## When the first pallas_call is entered -/

theorem W3_arg0 (c : Dev nD) : W3 m ρ c (Proc.devRef .tc main_arg0) = m ((c : Thread nD τ).loc main_arg0) := by
  dsimp only [W3, W2, W1, hostOps0, hostOps0_1, hostOps0_2]
  after_results <;> rfl
theorem W3_arg2 (c : Dev nD) : W3 m ρ c (Proc.devRef .tc main_arg2) = m ((c : Thread nD τ).loc main_arg2) := by
  dsimp only [W3, W2, W1, hostOps0, hostOps0_1, hostOps0_2]
  after_results <;> rfl
theorem W3_arg3 (c : Dev nD) : W3 m ρ c (Proc.devRef .tc main_arg3) = m ((c : Thread nD τ).loc main_arg3) := by
  dsimp only [W3, W2, W1, hostOps0, hostOps0_1, hostOps0_2]
  after_results <;> rfl
theorem W3_arg4 (c : Dev nD) : W3 m ρ c (Proc.devRef .tc main_arg4) = m ((c : Thread nD τ).loc main_arg4) := by
  dsimp only [W3, W2, W1, hostOps0, hostOps0_1, hostOps0_2]
  after_results <;> rfl
theorem W3_arg5 (c : Dev nD) : W3 m ρ c (Proc.devRef .tc main_arg5) = m ((c : Thread nD τ).loc main_arg5) := by
  dsimp only [W3, W2, W1, hostOps0, hostOps0_1, hostOps0_2]
  after_results <;> rfl

theorem W3_v1 (c : Dev nD) : W3 m ρ c (Proc.devRef .tc main_v1) = srcW (m ((c : Thread nD τ).loc main_arg1)) := by
  dsimp only [W3, W2, W1, hostOps0, hostOps0_1, hostOps0_2]
  after_results <;> rfl
theorem W3_v3 (c : Dev nD) : W3 m ρ c (Proc.devRef .tc main_v3) = dstW (m ((c : Thread nD τ).loc main_arg1)) := by
  dsimp only [W3, W2, W1, hostOps0, hostOps0_1, hostOps0_2]
  after_results <;> rfl
/-! The `dinv` column, stretch by stretch (the contents before each stretch held as a variable while it is read):
    the comparison and the inverse square root of the degree after the first stretch, their guarded choice after the
    second, its column after the third. -/

theorem W1_v11 (c : Dev nD) : W1 m ρ c (Proc.devRef .tc main_v11)
    = cmpf .ogt (degK (m ((c : Thread nD τ).loc main_arg1))) (broadcastInDim S100000 ![] Facts₀.bcast_S_S100000 (constant (F := Ideal) S_ .f32 0x00000000#32)) := by
  dsimp only [W1, hostOps0]
  after_results
  rfl
theorem W1_v12 (c : Dev nD) : W1 m ρ c (Proc.devRef .tc main_v12) = Host.rsqrt (degK (m ((c : Thread nD τ).loc main_arg1))) := by
  dsimp only [W1, hostOps0]
  after_results
  rfl
theorem W1_cst3 (c : Dev nD) : W1 m ρ c (Proc.devRef .tc main_cst_3) = constant (F := Ideal) S_ .f32 0x00000000#32 := by
  dsimp only [W1, hostOps0]
  after_results <;> rfl

theorem W2_v13 (c : Dev nD) : W2 m ρ c (Proc.devRef .tc main_v13)
    = select (W1 m ρ c (Proc.devRef .tc main_v11)) (W1 m ρ c (Proc.devRef .tc main_v12))
        (broadcastInDim S100000 ![] Facts₀.bcast_S_S100000 (id (W1 m ρ c (Proc.devRef .tc main_cst_3)))) := by
  dsimp only [W2]
  generalize W1 m ρ c = V1
  dsimp only [hostOps0_1]
  after_results
  rfl

theorem W3_v14_of_v13 (c : Dev nD) : W3 m ρ c (Proc.devRef .tc main_v14)
    = broadcastInDim S100000x1 ![0] Facts₀.bcast_S100000_S100000x1_0 (W2 m ρ c (Proc.devRef .tc main_v13)) := by
  dsimp only [W3]
  generalize W2 m ρ c = V2
  dsimp only [hostOps0_2]
  after_results <;> rfl

theorem W3_v14 (c : Dev nD) : W3 m ρ c (Proc.devRef .tc main_v14) = dinvColK (m ((c : Thread nD τ).loc main_arg1)) := by
  rw [W3_v14_of_v13, W2_v13, W1_v11, W1_v12, W1_cst3]
  rfl

/-! ## When the first pallas_call is left -/

theorem W4_v1 (c : Dev nD) : W4 m ρ c (Proc.devRef .tc main_v1) = srcW (m ((c : Thread nD τ).loc main_arg1)) :=
  (W4_of_ne m ρ c main_v1 (by decide)).trans (W3_v1 m ρ c)
theorem W4_v3 (c : Dev nD) : W4 m ρ c (Proc.devRef .tc main_v3) = dstW (m ((c : Thread nD τ).loc main_arg1)) :=
  (W4_of_ne m ρ c main_v3 (by decide)).trans (W3_v3 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
/-- The `dinv` column is an input array of the call: it is left as found. -/
theorem W4_v14 (c : Dev nD) : W4 m ρ c (Proc.devRef .tc main_v14) = dinvColK (m ((c : Thread nD τ).loc main_arg1)) :=
  ((W4_arr m ρ c 2).trans (((dat0 (V3 m ρ) c).arrAt_in 2 rfl _).trans (A_eq0 (V3 m ρ) c 2))).trans (W3_v14 m ρ c)

theorem W4_v15_0 (c : Dev nD) : W4 m ρ c (Proc.devRef .tc main_v15_0)
    = prod0 (m ((c : Thread nD τ).loc main_arg0)) (m ((c : Thread nD τ).loc main_arg2)) := by
  refine (W4_arr m ρ c 3).trans ((final0_3 (V3 m ρ) c).trans ?_)
  show prod0 (W3 m ρ c (Proc.devRef .tc main_arg0)) (W3 m ρ c (Proc.devRef .tc main_arg2)) = _
  rw [W3_arg0, W3_arg2]

theorem W4_v15_1 (c : Dev nD) : W4 m ρ c (Proc.devRef .tc main_v15_1)
    = prod0s (m ((c : Thread nD τ).loc main_arg0)) (m ((c : Thread nD τ).loc main_arg2)) (dinvColK (m ((c : Thread nD τ).loc main_arg1))) := by
  refine (W4_arr m ρ c 4).trans ((final0_4 (V3 m ρ) c).trans ?_)
  show prod0s (W3 m ρ c (Proc.devRef .tc main_arg0)) (W3 m ρ c (Proc.devRef .tc main_arg2)) (W3 m ρ c (Proc.devRef .tc main_v14)) = _
  rw [W3_arg0, W3_arg2, W3_v14]

/-! ## When the second pallas_call is entered -/

theorem W5_v1 (c : Dev nD) : W5 m ρ c (Proc.devRef .tc main_v1) = srcW (m ((c : Thread nD τ).loc main_arg1)) := by
  refine Eq.trans ?_ (W4_v1 m ρ c)
  dsimp only [W5, hostOps1]
  after_results <;> rfl
theorem W5_v3 (c : Dev nD) : W5 m ρ c (Proc.devRef .tc main_v3) = dstW (m ((c : Thread nD τ).loc main_arg1)) := by
  refine Eq.trans ?_ (W4_v3 m ρ c)
  dsimp only [W5, hostOps1]
  after_results <;> rfl
theorem W5_v14 (c : Dev nD) : W5 m ρ c (Proc.devRef .tc main_v14) = dinvColK (m ((c : Thread nD τ).loc main_arg1)) := by
  refine Eq.trans ?_ (W4_v14 m ρ c)
  dsimp only [W5, hostOps1]
  after_results <;> rfl
theorem W5_arg4 (c : Dev nD) : W5 m ρ c (Proc.devRef .tc main_arg4) = m ((c : Thread nD τ).loc main_arg4) := by
  refine Eq.trans ?_ (W4_arg4 m ρ c)
  dsimp only [W5, hostOps1]
  after_results <;> rfl
theorem W5_arg5 (c : Dev nD) : W5 m ρ c (Proc.devRef .tc main_arg5) = m ((c : Thread nD τ).loc main_arg5) := by
  refine Eq.trans ?_ (W4_arg5 m ρ c)
  dsimp only [W5, hostOps1]
  after_results <;> rfl
theorem W5_v15_0 (c : Dev nD) : W5 m ρ c (Proc.devRef .tc main_v15_0)
    = prod0 (m ((c : Thread nD τ).loc main_arg0)) (m ((c : Thread nD τ).loc main_arg2)) := by
  refine Eq.trans ?_ (W4_v15_0 m ρ c)
  dsimp only [W5, hostOps1]
  after_results <;> rfl

/-- The bias row: the stretch's reshape of the argument. -/
theorem W5_v26 (c : Dev nD) : W5 m ρ c (Proc.devRef .tc main_v26) = b1RowK (m ((c : Thread nD τ).loc main_arg3)) := by
  have h : W5 m ρ c (Proc.devRef .tc main_v26) = b1RowK (W4 m ρ c (Proc.devRef .tc main_arg3)) := by
    dsimp only [W5, hostOps1]
    after_results <;> rfl
  rw [h, W4_arg3]

/-- The aggregate: the stretch's gather and scatter of the first call's pre-scaled output. -/
theorem W5_v25 (c : Dev nD) : W5 m ρ c (Proc.devRef .tc main_v25)
    = aggK (m ((c : Thread nD τ).loc main_arg1))
        (prod0s (m ((c : Thread nD τ).loc main_arg0)) (m ((c : Thread nD τ).loc main_arg2)) (dinvColK (m ((c : Thread nD τ).loc main_arg1)))) := by
  dsimp only [W5, hostOps1]
  after_results
  rw [W4_v1, W4_v3, W4_v15_1]
  rfl

/-! ## When the second pallas_call is left -/

theorem W6_v1 (c : Dev nD) : W6 m ρ c (Proc.devRef .tc main_v1) = srcW (m ((c : Thread nD τ).loc main_arg1)) :=
  (W6_of_ne m ρ c main_v1 (by decide)).trans (W5_v1 m ρ c)
theorem W6_v3 (c : Dev nD) : W6 m ρ c (Proc.devRef .tc main_v3) = dstW (m ((c : Thread nD τ).loc main_arg1)) :=
  (W6_of_ne m ρ c main_v3 (by decide)).trans (W5_v3 m ρ c)
theorem W6_arg5 (c : Dev nD) : W6 m ρ c (Proc.devRef .tc main_arg5) = m ((c : Thread nD τ).loc main_arg5) :=
  (W6_of_ne m ρ c main_arg5 (by decide)).trans (W5_arg5 m ρ c)
/-- The `dinv` column is an input array of this call too. -/
theorem W6_v14 (c : Dev nD) : W6 m ρ c (Proc.devRef .tc main_v14) = dinvColK (m ((c : Thread nD τ).loc main_arg1)) :=
  ((W6_arr m ρ c 2).trans (((dat1 (V5 m ρ) c).arrAt_in 2 rfl _).trans (A_eq1 (V5 m ρ) c 2))).trans (W5_v14 m ρ c)

theorem W6_v27_0 (c : Dev nD) : W6 m ρ c (Proc.devRef .tc main_v27_0)
    = H2 (m ((c : Thread nD τ).loc main_arg0)) (m ((c : Thread nD τ).loc main_arg1)) (m ((c : Thread nD τ).loc main_arg2))
        (m ((c : Thread nD τ).loc main_arg3)) (m ((c : Thread nD τ).loc main_arg4)) := by
  refine (W6_arr m ρ c 5).trans ((final1_5 (V5 m ρ) c).trans ?_)
  show prod1 (W5 m ρ c (Proc.devRef .tc main_v25)) (W5 m ρ c (Proc.devRef .tc main_v15_0)) (W5 m ρ c (Proc.devRef .tc main_v14))
      (W5 m ρ c (Proc.devRef .tc main_v26)) (W5 m ρ c (Proc.devRef .tc main_arg4)) = _
  rw [W5_v25, W5_v15_0, W5_v14, W5_v26, W5_arg4]

theorem W6_v27_1 (c : Dev nD) : W6 m ρ c (Proc.devRef .tc main_v27_1)
    = H2S (m ((c : Thread nD τ).loc main_arg0)) (m ((c : Thread nD τ).loc main_arg1)) (m ((c : Thread nD τ).loc main_arg2))
        (m ((c : Thread nD τ).loc main_arg3)) (m ((c : Thread nD τ).loc main_arg4)) := by
  refine (W6_arr m ρ c 6).trans ((final1_6 (V5 m ρ) c).trans ?_)
  show prod1s (W5 m ρ c (Proc.devRef .tc main_v25)) (W5 m ρ c (Proc.devRef .tc main_v15_0)) (W5 m ρ c (Proc.devRef .tc main_v14))
      (W5 m ρ c (Proc.devRef .tc main_v26)) (W5 m ρ c (Proc.devRef .tc main_arg4)) = _
  rw [W5_v25, W5_v15_0, W5_v14, W5_v26, W5_arg4]

/-! ## At the return -/

set_option maxHeartbeats 4000000 in
/-- The last stretch from ANY contents `V6`: the result buffer is the tail over `V6`'s outputs of the second call, given
    what `V6` holds at the edge list's rows, the `dinv` column and the second bias. -/
theorem tail_read (V6 : Valuation τ sig (Elt Ideal)) (A B : FVec Ideal S100000x256 .f32) (ei : IVec S2x800000 32)
    (b2 : FVec Ideal S256 .f32)
    (hA : V6 (Proc.devRef .tc main_v27_0) = A) (hB : V6 (Proc.devRef .tc main_v27_1) = B)
    (h1 : V6 (Proc.devRef .tc main_v1) = srcW ei) (h3 : V6 (Proc.devRef .tc main_v3) = dstW ei)
    (h14 : V6 (Proc.devRef .tc main_v14) = dinvColK ei) (h5 : V6 (Proc.devRef .tc main_arg5) = b2) :
    StableHlo.after (hostOps2 (F := Ideal)) V6 (Proc.devRef .tc main_v46) = tailK ei A B b2 := by
  dsimp only [hostOps2]
  after_results_simp
  rw [h1, h3, h14, h5, hA, hB]
  rfl

/-- The result buffer at the last boundary is the tail over what the second call left. -/
theorem W7_v46_tail (c : Dev nD) : W7 m ρ c (Proc.devRef .tc main_v46)
    = tailK (m ((c : Thread nD τ).loc main_arg1)) (W6 m ρ c (Proc.devRef .tc main_v27_0)) (W6 m ρ c (Proc.devRef .tc main_v27_1))
        (m ((c : Thread nD τ).loc main_arg5)) :=
  tail_read (W6 m ρ c) _ _ _ _ rfl rfl (W6_v1 m ρ c) (W6_v3 m ρ c) (W6_v14 m ρ c) (W6_arg5 m ρ c)

/-- THE RESULT BUFFER at the last boundary is `G` of the launch contents of the arguments. -/
theorem W7_v46 (c : Dev nD) : W7 m ρ c (Proc.devRef .tc main_v46)
    = Cert.Gcn.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [W7_v46_tail, W6_v27_0, W6_v27_1]
  exact kernel_value _ _ _ _ _ _

end Cert.KernelIdeal.Val

end
-- ==== Proof.GcnLaw.lean ====
/-
  The algebra of the graph convolution over the extended reals.

  Every stage of `Cert.Gcn` is a real number once the inputs are: a degree is a count plus one, so at least one, and
  its inverse square root is a positive real; a linear map, a layer and the rectifier keep reals real. On reals the
  two arrangements of a layer agree: scaling each neighbour's term by `dinv (source) · dinv i` inside the sum, with the
  self loop as one more term of the same sum (`layerRef`), against scaling the whole sum by `dinv i` afterwards and adding
  the self loop's term written out (`layer`) — distributivity, which holds for reals and fails at the infinities.
-/
import proofs.«103662_j74191265071481_2_alg».proof.Proof.GcnSpec

noncomputable section

open scoped BigOperators

namespace Cert.Gcn

open Idealize.ShloMosaic Idealize.ShloMosaic.ValueIdx

theorem zeroF_eq : zeroF = ((0 : ℝ) : EReal) := by
  show Ideal.ofBits .f32 0x00000000#32 = ((0 : ℝ) : EReal)
  simp [Ideal.ofBits, Ideal.ieee]

theorem oneF_eq : oneF = ((1 : ℝ) : EReal) := by
  show Ideal.ofBits .f32 0x3F800000#32 = ((1 : ℝ) : EReal)
  simp [Ideal.ofBits, Ideal.ieee, -EReal.coe_mul]; norm_num

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem sum_real {ι : Type} (s : Finset ι) (f : ι → EReal) (hf : ∀ i, IsReal (f i)) : IsReal (∑ i ∈ s, f i) := by
  choose r hr using hf
  exact ⟨∑ i ∈ s, r i, by rw [coe_sum]; exact Finset.sum_congr rfl fun i _ => hr i⟩

/-- The degree is the count of landing edges plus one, a real number. -/
theorem deg_eq (ei : IVec ⟨2, ![2, 800000]⟩ 32) (i : Fin 100000) :
    deg ei i = ((((into ei i).card + 1 : ℕ) : ℝ) : EReal) := by
  unfold deg
  rw [zeroF_eq, oneF_eq, ← coe_sum, ← EReal.coe_add, ← EReal.coe_add, Finset.sum_const, nsmul_eq_mul, mul_one,
    zero_add, Nat.cast_add, Nat.cast_one]

/-- The inverse square root of the degree, as the real it is. -/
theorem dinv_eq (ei : IVec ⟨2, ![2, 800000]⟩ 32) (i : Fin 100000) :
    dinv ei i = (((Real.sqrt (((into ei i).card + 1 : ℕ) : ℝ))⁻¹ : ℝ) : EReal) := by
  have hpos : (0 : ℝ) < (((into ei i).card + 1 : ℕ) : ℝ) := by exact_mod_cast Nat.succ_pos _
  unfold dinv
  rw [deg_eq, zeroF_eq]
  have hc : Ideal.cmp .ogt ((((into ei i).card + 1 : ℕ) : ℝ) : EReal) ((0 : ℝ) : EReal) = 1#1 := by
    simp only [Ideal.cmp, EReal.coe_lt_coe_iff, hpos, decide_true]
    rfl
  rw [hc, select_one]
  show (if (((into ei i).card + 1 : ℕ) : ℝ) < 0 then (⊥ : EReal) else if (((into ei i).card + 1 : ℕ) : ℝ) = 0 then ⊤ else _) = _
  rw [if_neg (not_lt.mpr hpos.le), if_neg hpos.ne']

theorem dinv_real (ei : IVec ⟨2, ![2, 800000]⟩ 32) (i : Fin 100000) : IsReal (dinv ei i) :=
  ⟨_, dinv_eq ei i⟩

theorem mm_real {K : Nat} (a : Fin 100000 → Fin K → EReal) (w : Fin K → Fin 256 → EReal)
    (ha : ∀ i k, IsReal (a i k)) (hw : ∀ k j, IsReal (w k j)) (i : Fin 100000) (j : Fin 256) : IsReal (mm a w i j) := by
  choose ra hra using ha
  choose rw hrw using hw
  unfold mm
  exact sum_real _ _ fun k => ⟨ra i k * rw k j, by rw [hra, hrw, EReal.coe_mul]⟩

theorem layer_real (ei : IVec ⟨2, ![2, 800000]⟩ 32) (h : Fin 100000 → Fin 256 → EReal) (b : Fin 256 → EReal)
    (hh : ∀ i j, IsReal (h i j)) (hb : ∀ j, IsReal (b j)) (i : Fin 100000) (j : Fin 256) : IsReal (layer ei h b i j) := by
  choose rh hrh using hh
  choose rb hrb using hb
  obtain ⟨s, hs⟩ : IsReal (∑ e ∈ into ei i, h (srcRow ei e) j * dinv ei (srcRow ei e)) :=
    sum_real _ _ fun e => ⟨rh (srcRow ei e) j * _, by rw [hrh, dinv_eq, EReal.coe_mul]⟩
  unfold layer agg
  rw [hs, zeroF_eq, dinv_eq, hrh, hrb]
  simp only [← EReal.coe_mul, ← EReal.coe_add]
  exact ⟨_, rfl⟩

theorem relu_real (v : EReal) (hv : IsReal v) : IsReal (relu v) := by
  obtain ⟨r, rfl⟩ := hv
  unfold relu
  rw [zeroF_eq]
  rcases le_total r 0 with h | h
  · exact ⟨0, max_eq_right (EReal.coe_le_coe_iff.mpr h)⟩
  · exact ⟨r, max_eq_left (EReal.coe_le_coe_iff.mpr h)⟩

theorem hidden_real (ei : IVec ⟨2, ![2, 800000]⟩ 32) (x : Fin 100000 → Fin 128 → EReal) (W1 : Fin 128 → Fin 256 → EReal)
    (b1 : Fin 256 → EReal) (hx : ∀ i k, IsReal (x i k)) (hW1 : ∀ k j, IsReal (W1 k j)) (hb1 : ∀ j, IsReal (b1 j))
    (i : Fin 100000) (j : Fin 256) : IsReal (hidden ei x W1 b1 i j) :=
  relu_real _ (layer_real ei _ _ (mm_real x W1 hx hW1) hb1 i j)

/-- The degree as a scatter over the edges followed by the nodes' self loops counts it. -/
def degRef (ei : IVec ⟨2, ![2, 800000]⟩ 32) (i : Fin 100000) : EReal :=
  zeroF + ((∑ _e ∈ into ei i, oneF) + oneF)

theorem degRef_eq (ei : IVec ⟨2, ![2, 800000]⟩ 32) (i : Fin 100000) : degRef ei i = deg ei i := by
  unfold degRef
  rw [deg_eq, zeroF_eq, oneF_eq, ← coe_sum, ← EReal.coe_add, ← EReal.coe_add, Finset.sum_const, nsmul_eq_mul, mul_one,
    zero_add, Nat.cast_add, Nat.cast_one]

/-- A layer as a scatter over the edges followed by the nodes' self loops computes it: every term scaled inside the sum. -/
def layerRef (ei : IVec ⟨2, ![2, 800000]⟩ 32) (h : Fin 100000 → Fin 256 → EReal) (b : Fin 256 → EReal)
    (i : Fin 100000) (j : Fin 256) : EReal :=
  (zeroF + ((∑ e ∈ into ei i, h (srcRow ei e) j * (dinv ei (srcRow ei e) * dinv ei i)) + h i j * (dinv ei i * dinv ei i))) + b j

theorem layerRef_eq_layer (ei : IVec ⟨2, ![2, 800000]⟩ 32) (h : Fin 100000 → Fin 256 → EReal) (b : Fin 256 → EReal)
    (hh : ∀ i j, IsReal (h i j)) (i : Fin 100000) (j : Fin 256) : layerRef ei h b i j = layer ei h b i j := by
  choose rh hrh using hh
  -- every factor is the coercion of a real: `d n` is node `n`'s inverse square root of its degree
  set d : Fin 100000 → ℝ := fun n => (Real.sqrt (((into ei n).card + 1 : ℕ) : ℝ))⁻¹ with hd
  have hdinv : ∀ n, dinv ei n = ((d n : ℝ) : EReal) := fun n => dinv_eq ei n
  have hL : ∑ e ∈ into ei i, h (srcRow ei e) j * (dinv ei (srcRow ei e) * dinv ei i)
      = ((∑ e ∈ into ei i, rh (srcRow ei e) j * (d (srcRow ei e) * d i) : ℝ) : EReal) := by
    rw [coe_sum]
    exact Finset.sum_congr rfl fun e _ => by rw [hrh, hdinv, hdinv, EReal.coe_mul, EReal.coe_mul]
  have hR : ∑ e ∈ into ei i, h (srcRow ei e) j * dinv ei (srcRow ei e)
      = ((∑ e ∈ into ei i, rh (srcRow ei e) j * d (srcRow ei e) : ℝ) : EReal) := by
    rw [coe_sum]
    exact Finset.sum_congr rfl fun e _ => by rw [hrh, hdinv, EReal.coe_mul]
  unfold layerRef layer agg
  rw [hL, hR, zeroF_eq, hdinv i, hrh i j]
  -- both sides are now a real expression plus the bias (which may be any extended real)
  simp only [← EReal.coe_mul, ← EReal.coe_add]
  refine congrArg (fun t : ℝ => (t : EReal) + b j) ?_
  rw [zero_add, zero_add, Finset.mul_sum]
  exact congrArg₂ (· + ·) (Finset.sum_congr rfl fun e _ => by ring) (by ring)

end Cert.Gcn

end
-- ==== Proof.RefIsG.lean ====
/-
  The reference program computes `Cert.Gcn.G`.

  The reference appends one self-loop pair `(n, n)` per node to the edge list and runs every scatter and gather over the
  900000 pairs. A pair of the first 800000 is an edge; pair `800000 + n` reads row `n` and lands on node `n`. So each sum
  over the pairs landing on `i` is the sum over the edges landing on `i` plus the one term of the pair `800000 + i`.
-/
import proofs.«103662_j74191265071481_2_alg».proof.Proof.RefReadP
import proofs.«103662_j74191265071481_2_alg».proof.Proof.GcnSpec
import proofs.«103662_j74191265071481_2_alg».proof.Proof.GcnLaw
import proofs.«103662_j74191265071481_2_alg».proof.Proof.LibScatterRows
import proofs.«103662_j74191265071481_2_alg».proof.Proof.LibGatherRows
import Idealize.ShloMosaic.Lib.Pipeline.Value
import Idealize.ShloMosaic.Lib.ValueIdx

noncomputable section

open scoped BigOperators

namespace Cert.Gcn.RefSide

open Idealize.ShloMosaic Idealize.ShloMosaic.ValueIdx Cert.ReferenceIdeal Cert.Gcn

open Cert.ReferenceIdeal.ReadP

/-- The source word of pair `p`: an edge's own source word, or the node's number for a self-loop pair. -/
def srcW (ei : IVec S2x800000 32) (p : Fin 900000) : BitVec 32 :=
  if h : p.val < 800000 then ei (ix2 0 ⟨p.val, h⟩) else BitVec.ofNat 32 (p.val - 800000)

/-- The destination word of pair `p`. -/
def dstW (ei : IVec S2x800000 32) (p : Fin 900000) : BitVec 32 :=
  if h : p.val < 800000 then ei (ix2 1 ⟨p.val, h⟩) else BitVec.ofNat 32 (p.val - 800000)

theorem v3_apply (ei : IVec S2x800000 32) (p : Fin 900000) :
    val_main_v3 (F := Ideal) ei (ix1 p) = srcW ei p := by
  unfold val_main_v3 srcW
  by_cases h : p.val < 800000
  · rw [dif_pos h]
    refine (concatenate_pair_apply_left (t := S900000) (s₁ := S800000) (s₂ := S100000) _ _ _ _ (ix1 p) rfl
      (ix1 (⟨p.val, h⟩ : Fin 800000)) ?_).trans ?_
    · intro b
      match b with
      | ⟨0, _⟩ => rfl
    · rw [val_main_v2_apply, val_main_v1_apply]
      refine congrArg ei (funext fun a => Fin.ext ?_)
      match a with
      | ⟨0, _⟩ => rfl
      | ⟨1, _⟩ => show p.val % 800000 = p.val; omega
  · rw [dif_neg h]
    have h2 : p.val - 800000 < 100000 := by have := p.isLt; omega
    refine (concatenate_pair_apply_right (t := S900000) (s₁ := S800000) (s₂ := S100000) _ _ _ _ (ix1 p) rfl rfl
      (ix1 (⟨p.val - 800000, h2⟩ : Fin 100000)) ?_ ?_).trans ?_
    · intro b hb
      refine absurd (Fin.ext ?_) hb
      have hb1 : b.val < 1 := b.isLt
      show b.val = 0
      omega
    · show p.val - 800000 + 800000 = p.val; omega
    · rw [val_main_v0_apply]

theorem v6_apply (ei : IVec S2x800000 32) (p : Fin 900000) :
    val_main_v6 (F := Ideal) ei (ix1 p) = dstW ei p := by
  unfold val_main_v6 dstW
  by_cases h : p.val < 800000
  · rw [dif_pos h]
    refine (concatenate_pair_apply_left (t := S900000) (s₁ := S800000) (s₂ := S100000) _ _ _ _ (ix1 p) rfl
      (ix1 (⟨p.val, h⟩ : Fin 800000)) ?_).trans ?_
    · intro b
      match b with
      | ⟨0, _⟩ => rfl
    · rw [val_main_v5_apply, val_main_v4_apply]
      refine congrArg ei (funext fun a => Fin.ext ?_)
      match a with
      | ⟨0, _⟩ => rfl
      | ⟨1, _⟩ => show p.val % 800000 = p.val; omega
  · rw [dif_neg h]
    have h2 : p.val - 800000 < 100000 := by have := p.isLt; omega
    refine (concatenate_pair_apply_right (t := S900000) (s₁ := S800000) (s₂ := S100000) _ _ _ _ (ix1 p) rfl rfl
      (ix1 (⟨p.val - 800000, h2⟩ : Fin 100000)) ?_ ?_).trans ?_
    · intro b hb
      refine absurd (Fin.ext ?_) hb
      have hb1 : b.val < 1 := b.isLt
      show b.val = 0
      omega
    · show p.val - 800000 + 800000 = p.val; omega
    · rw [val_main_v0_apply]

/-- Pair `e` of the first 800000 is edge `e`. -/
def edgeP (e : Fin 800000) : Fin 900000 := ⟨e.val, by have := e.isLt; omega⟩
/-- Pair `800000 + n` is node `n`'s self loop. -/
def loopP (n : Fin 100000) : Fin 900000 := ⟨800000 + n.val, by have := n.isLt; omega⟩

theorem edgeP_injective : Function.Injective edgeP := fun a b h => by
  have h1 : (edgeP a).val = (edgeP b).val := congrArg Fin.val h
  exact Fin.ext h1

theorem srcW_of_lt (ei : IVec S2x800000 32) (p : Fin 900000) (h : p.val < 800000) :
    srcW ei p = ei (ix2 0 ⟨p.val, h⟩) := dif_pos h
theorem srcW_of_ge (ei : IVec S2x800000 32) (p : Fin 900000) (h : ¬ p.val < 800000) :
    srcW ei p = BitVec.ofNat 32 (p.val - 800000) := dif_neg h
theorem dstW_of_lt (ei : IVec S2x800000 32) (p : Fin 900000) (h : p.val < 800000) :
    dstW ei p = ei (ix2 1 ⟨p.val, h⟩) := dif_pos h
theorem dstW_of_ge (ei : IVec S2x800000 32) (p : Fin 900000) (h : ¬ p.val < 800000) :
    dstW ei p = BitVec.ofNat 32 (p.val - 800000) := dif_neg h

theorem srcW_edgeP (ei : IVec S2x800000 32) (e : Fin 800000) : srcW ei (edgeP e) = ei (ix2 0 e) :=
  srcW_of_lt ei (edgeP e) e.isLt
theorem dstW_edgeP (ei : IVec S2x800000 32) (e : Fin 800000) : dstW ei (edgeP e) = ei (ix2 1 e) :=
  dstW_of_lt ei (edgeP e) e.isLt
theorem srcW_loopP (ei : IVec S2x800000 32) (n : Fin 100000) : srcW ei (loopP n) = BitVec.ofNat 32 n.val := by
  rw [srcW_of_ge ei (loopP n) (by show ¬ (800000 + n.val < 800000); omega)]
  show BitVec.ofNat 32 (800000 + n.val - 800000) = _
  rw [Nat.add_sub_cancel_left]
theorem dstW_loopP (ei : IVec S2x800000 32) (n : Fin 100000) : dstW ei (loopP n) = BitVec.ofNat 32 n.val := by
  rw [dstW_of_ge ei (loopP n) (by show ¬ (800000 + n.val < 800000); omega)]
  show BitVec.ofNat 32 (800000 + n.val - 800000) = _
  rw [Nat.add_sub_cancel_left]

/-- A node's number as a 32-bit word reads back signed as itself. -/
theorem toInt_ofNat_small (n : Nat) (h : n < 100000) : (BitVec.ofNat 32 n).toInt = (n : Int) := by
  have h1 : (BitVec.ofNat 32 n).toNat = n := by
    rw [BitVec.toNat_ofNat]; exact Nat.mod_eq_of_lt (by omega)
  rw [BitVec.toInt_eq_toNat_of_lt (by rw [h1]; omega), h1]

/-- The pairs landing on node `i` are the edges landing on `i` and the one self-loop pair of `i`. -/
theorem sum_landing (ei : IVec S2x800000 32) (i : Fin 100000) (f : Fin 900000 → EReal) :
    ∑ p ∈ Finset.univ.filter (fun p : Fin 900000 => (dstW ei p).toInt = (i.val : Int)), f p
      = (∑ e ∈ into ei i, f (edgeP e)) + f (loopP i) := by
  have hset : Finset.univ.filter (fun p : Fin 900000 => (dstW ei p).toInt = (i.val : Int))
      = (into ei i).map ⟨edgeP, edgeP_injective⟩ ∪ {loopP i} := by
    ext p
    rw [Finset.mem_filter, Finset.mem_union, Finset.mem_map, Finset.mem_singleton]
    by_cases h : p.val < 800000
    · constructor
      · rintro ⟨-, hd⟩
        left
        refine ⟨⟨p.val, h⟩, ?_, Fin.ext rfl⟩
        rw [into, Finset.mem_filter]
        refine ⟨Finset.mem_univ _, ?_⟩
        rw [dstW_of_lt ei p h] at hd
        exact hd
      · rintro (⟨e, he, rfl⟩ | rfl)
        · refine ⟨Finset.mem_univ _, ?_⟩
          rw [into, Finset.mem_filter] at he
          show (dstW ei (edgeP e)).toInt = _
          rw [dstW_edgeP]
          exact he.2
        · exact absurd h (by show ¬ (800000 + i.val < 800000); omega)
    · have h2 : p.val - 800000 < 100000 := by have := p.isLt; omega
      constructor
      · rintro ⟨-, hd⟩
        right
        rw [dstW_of_ge ei p h, toInt_ofNat_small _ h2] at hd
        exact Fin.ext (show p.val = 800000 + i.val by omega)
      · rintro (⟨e, he, rfl⟩ | rfl)
        · exact absurd e.isLt h
        · refine ⟨Finset.mem_univ _, ?_⟩
          rw [dstW_loopP, toInt_ofNat_small _ i.isLt]
  rw [hset, Finset.sum_union, Finset.sum_map, Finset.sum_singleton]
  · rfl
  · rw [Finset.disjoint_singleton_right, Finset.mem_map]
    rintro ⟨e, -, he⟩
    have h0 : (edgeP e).val = (loopP i).val := congrArg Fin.val he
    have h1 : e.val = 800000 + i.val := h0
    have := e.isLt
    omega

theorem v7_apply (p : Fin 900000) : val_main_v7 (F := Ideal) (ix1 p) = oneF := by
  rw [val_main_v7_apply, val_main_cst_apply]; rfl

theorem v8_apply (i : Fin 100000) : val_main_v8 (F := Ideal) (ix1 i) = zeroF := by
  rw [val_main_v8_apply, val_main_cst_0_apply]; rfl

theorem v9_apply (ei : IVec S2x800000 32) (p : Fin 900000) :
    val_main_v9 (F := Ideal) ei (ix2 p (0 : Fin 1)) = dstW ei p := by
  rw [val_main_v9_apply]
  exact (congrArg (val_main_v6 (F := Ideal) ei) (funext fun a => by match a with | ⟨0, _⟩ => rfl)).trans (v6_apply ei p)

/-- The reference's degree array: zero, plus one per edge landing on the node, plus one for the self-loop pair. -/
theorem v10_apply (ei : IVec S2x800000 32) (i : Fin 100000) :
    val_main_v10 (F := Ideal) ei (ix1 i) = degRef ei i := by
  unfold val_main_v10
  refine (Cert.ScatterRows.scatterAdd_vec_apply_of_fields (N := 100000) (E := 900000) _ rfl rfl rfl rfl _ _ _ i).trans ?_
  have hfil : Finset.univ.filter (fun e : Fin 900000 => (val_main_v9 (F := Ideal) ei (ix2 e (0 : Fin 1))).toInt = (i.val : Int))
      = Finset.univ.filter (fun p : Fin 900000 => (dstW ei p).toInt = (i.val : Int)) :=
    Finset.filter_congr fun p _ => by rw [v9_apply ei p]
  rw [hfil, sum_landing, v8_apply, v7_apply]
  simp only [v7_apply]
  rfl

/-- The reference's `dinv` array. -/
theorem v14_apply (ei : IVec S2x800000 32) (i : Fin 100000) :
    val_main_v14 (F := Ideal) ei (ix1 i) = dinv ei i := by
  rw [val_main_v14_apply, val_main_v12_apply, val_main_v13_apply, v10_apply, degRef_eq, val_main_v11_apply,
    val_main_cst_1_apply, val_main_call0_v1_apply, val_main_call0_v0_apply, val_main_cst_2_apply,
    Ideal.cmpf_def, Ideal.hostUnary_rsqrt_def, Ideal.ofBits_def]
  unfold dinv
  rfl

/-- A word that reads signed as a natural number is left alone by the negative-index shift. -/
theorem wrap_of_nonneg (w : BitVec 32) (h : 0 ≤ w.toInt) : wrap w = w := by
  unfold wrap
  have hc : IntOp.cmpi .slt w 0#32 = 0#1 := by
    show BitVec.ofBool (w.slt 0#32) = 0#1
    rw [BitVec.slt_eq_decide, BitVec.toInt_zero, decide_eq_false (by omega)]
    rfl
  rw [hc, select_zero]

/-- A word that reads signed as node `i` addresses row `i`. -/
theorem row_wrap_of_toInt (w : BitVec 32) (i : Fin 100000) (h : w.toInt = (i.val : Int)) : row (wrap w) = i := by
  rw [wrap_of_nonneg w (by omega)]
  unfold row
  apply Fin.ext
  show min w.toInt.toNat 99999 = i.val
  have := i.isLt
  omega

theorem v19_apply (ei : IVec S2x800000 32) (p : Fin 900000) :
    val_main_v19 (F := Ideal) ei (ix1 p) = wrap (srcW ei p) := by
  rw [val_main_v19_apply, val_main_v16_apply, val_main_v18_apply, v3_apply, val_main_v15_apply, val_main_c_apply,
    val_main_v17_apply, val_main_c_3_apply]
  rfl

theorem v20_apply (ei : IVec S2x800000 32) (p : Fin 900000) :
    val_main_v20 (F := Ideal) ei (ix2 p (0 : Fin 1)) = wrap (srcW ei p) := by
  rw [val_main_v20_apply]
  exact (congrArg (val_main_v19 (F := Ideal) ei) (funext fun a => by match a with | ⟨0, _⟩ => rfl)).trans (v19_apply ei p)

theorem v26_apply (ei : IVec S2x800000 32) (p : Fin 900000) :
    val_main_v26 (F := Ideal) ei (ix1 p) = wrap (dstW ei p) := by
  rw [val_main_v26_apply, val_main_v23_apply, val_main_v25_apply, v6_apply, val_main_v22_apply, val_main_c_4_apply,
    val_main_v24_apply, val_main_c_5_apply]
  rfl

theorem v27_apply (ei : IVec S2x800000 32) (p : Fin 900000) :
    val_main_v27 (F := Ideal) ei (ix2 p (0 : Fin 1)) = wrap (dstW ei p) := by
  rw [val_main_v27_apply]
  exact (congrArg (val_main_v26 (F := Ideal) ei) (funext fun a => by match a with | ⟨0, _⟩ => rfl)).trans (v26_apply ei p)

/-- The `dinv` array gathered through any array of index words: the element at the word's row. -/
theorem gather_dinv (ei : IVec S2x800000 32) (idx : IVec S900000x1 32) (w : BitVec 32) (p : Fin 900000)
    (h : idx (ix2 p (0 : Fin 1)) = w) :
    Host.gather gather_S100000_S900000x1_S900000_n_0_n_n_0_1_1 (val_main_v14 (F := Ideal) ei) idx (ix1 p)
      = dinv ei (row w) := by
  subst h
  refine (Cert.GatherRows.gather_vec_apply_of_fields (N := 100000) (E := 900000) (by omega) _ rfl rfl rfl rfl rfl rfl rfl
    (val_main_v14 (F := Ideal) ei) idx p).trans ?_
  exact v14_apply ei (row (idx (ix2 p (0 : Fin 1))))

/-- `dinv` gathered at the pair's source word. -/
theorem v21_apply (ei : IVec S2x800000 32) (p : Fin 900000) :
    val_main_v21 (F := Ideal) ei (ix1 p) = dinv ei (row (wrap (srcW ei p))) := by
  unfold val_main_v21
  exact gather_dinv ei (val_main_v20 (F := Ideal) ei) (wrap (srcW ei p)) p (v20_apply ei p)

/-- `dinv` gathered at the pair's destination word. -/
theorem v28_apply (ei : IVec S2x800000 32) (p : Fin 900000) :
    val_main_v28 (F := Ideal) ei (ix1 p) = dinv ei (row (wrap (dstW ei p))) := by
  unfold val_main_v28
  exact gather_dinv ei (val_main_v27 (F := Ideal) ei) (wrap (dstW ei p)) p (v27_apply ei p)

/-- The pair's normalisation: `dinv` at its source row times `dinv` at its destination row. -/
theorem v29_apply (ei : IVec S2x800000 32) (p : Fin 900000) :
    val_main_v29 (F := Ideal) ei (ix1 p)
      = dinv ei (row (wrap (srcW ei p))) * dinv ei (row (wrap (dstW ei p))) := by
  rw [val_main_v29_apply, v21_apply, v28_apply]
  rfl

/-- The row a gather reads at a word, as the gather's own clamp spells it. -/
theorem row_mk (w : BitVec 32) (h : min w.toInt.toNat (100000 - 1) < 100000) :
    (⟨min w.toInt.toNat (100000 - 1), h⟩ : Fin 100000) = row w := Fin.ext rfl

/-- Rows of any array gathered through any array of index words: the row the word addresses. -/
theorem gather_row (H : FVec Ideal S100000x256 .f32) (sI : IVec S900000x1 32) (w : BitVec 32) (p : Fin 900000)
    (j : Fin 256) (h : sI (ix2 p (0 : Fin 1)) = w) :
    Host.gather gather_S100000x256_S900000x1_S900000x256_1_0_n_n_0_1_1256 H sI (ix2 p j) = H (ix2 (row w) j) := by
  subst h
  refine (Cert.GatherRows.gather_rows_apply_of_fields (N := 100000) (M := 256) (E := 900000) (by omega) _
    rfl rfl rfl rfl rfl rfl rfl H sI p j).trans ?_
  exact congrArg (fun r => H (ix2 r j)) (row_mk _ _)

/-- One aggregation of the reference, for ANY row array `H`: rows of `H` gathered at the pairs' wrapped source words,
    each scaled by its pair's normalisation, scatter-added at the pairs' destination words into zeros. Read at `(i, j)` it
    is zero, plus the edges landing on `i` each bringing `H (srcRow e) j · (dinv (srcRow e) · dinv i)`, plus the self-loop
    pair's `H i j · (dinv i · dinv i)`. The index, normalisation and zero arrays enter through what they hold. -/
theorem layer_read (ei : IVec S2x800000 32) (H : FVec Ideal S100000x256 .f32)
    (z : FVec Ideal S100000x256 .f32) (dI sI : IVec S900000x1 32) (nm : FVec Ideal S900000x256 .f32)
    (hz : ∀ k, z k = zeroF)
    (hdI : ∀ p : Fin 900000, dI (ix2 p (0 : Fin 1)) = dstW ei p)
    (hsI : ∀ p : Fin 900000, sI (ix2 p (0 : Fin 1)) = wrap (srcW ei p))
    (hnm : ∀ (p : Fin 900000) (j : Fin 256),
      nm (ix2 p j) = dinv ei (row (wrap (srcW ei p))) * dinv ei (row (wrap (dstW ei p))))
    (i : Fin 100000) (j : Fin 256) :
    Host.scatterAdd (F := Ideal) scatter_S100000x256_S900000x1_S900000x256_1_0_0_1 z dI
        (mulf (Host.gather gather_S100000x256_S900000x1_S900000x256_1_0_n_n_0_1_1256 H sI) nm) (ix2 i j)
      = zeroF + ((∑ e ∈ into ei i, H (ix2 (srcRow ei e) j) * (dinv ei (srcRow ei e) * dinv ei i))
          + H (ix2 i j) * (dinv ei i * dinv ei i)) := by
  -- one message, whatever the pair
  have hmsg : ∀ p : Fin 900000,
      mulf (Host.gather gather_S100000x256_S900000x1_S900000x256_1_0_n_n_0_1_1256 H sI) nm (ix2 p j)
        = H (ix2 (row (wrap (srcW ei p))) j)
            * (dinv ei (row (wrap (srcW ei p))) * dinv ei (row (wrap (dstW ei p)))) := by
    intro p
    rw [mulf_apply, hnm, gather_row H sI (wrap (srcW ei p)) p j (hsI p)]
  refine (Cert.ScatterRows.scatterAdd_rows_apply_of_fields (N := 100000) (M := 256) (E := 900000) _ rfl rfl rfl rfl
    z dI _ i j).trans ?_
  have hfil : Finset.univ.filter (fun e : Fin 900000 => (dI (ix2 e (0 : Fin 1))).toInt = (i.val : Int))
      = Finset.univ.filter (fun p : Fin 900000 => (dstW ei p).toInt = (i.val : Int)) :=
    Finset.filter_congr fun p _ => by rw [hdI p]
  rw [hfil, sum_landing, hz, hmsg (loopP i)]
  -- the self-loop pair: both words are the node's own number
  rw [srcW_loopP, dstW_loopP, row_wrap_of_toInt _ i (toInt_ofNat_small _ i.isLt)]
  -- an edge landing on `i`: its source word addresses `srcRow e`, its destination word row `i`
  have hedge : ∀ e ∈ into ei i,
      mulf (Host.gather gather_S100000x256_S900000x1_S900000x256_1_0_n_n_0_1_1256 H sI) nm (ix2 (edgeP e) j)
        = H (ix2 (srcRow ei e) j) * (dinv ei (srcRow ei e) * dinv ei i) := by
    intro e he
    rw [into, Finset.mem_filter] at he
    rw [hmsg (edgeP e), srcW_edgeP, dstW_edgeP, row_wrap_of_toInt _ i he.2]
    rfl
  rw [Finset.sum_congr rfl hedge]

/-! ### The first layer -/

theorem v35_apply (ei : IVec S2x800000 32) (p : Fin 900000) :
    val_main_v35 (F := Ideal) ei (ix1 p) = wrap (srcW ei p) := by
  rw [val_main_v35_apply, val_main_v32_apply, val_main_v34_apply, v3_apply, val_main_v31_apply, val_main_c_6_apply,
    val_main_v33_apply, val_main_c_7_apply]
  rfl

theorem v36_apply (ei : IVec S2x800000 32) (p : Fin 900000) :
    val_main_v36 (F := Ideal) ei (ix2 p (0 : Fin 1)) = wrap (srcW ei p) := by
  rw [val_main_v36_apply]
  exact (congrArg (val_main_v35 (F := Ideal) ei) (funext fun a => by match a with | ⟨0, _⟩ => rfl)).trans (v35_apply ei p)

theorem v39_apply (ei : IVec S2x800000 32) (p : Fin 900000) (j : Fin 256) :
    val_main_v39 (F := Ideal) ei (ix2 p j)
      = dinv ei (row (wrap (srcW ei p))) * dinv ei (row (wrap (dstW ei p))) := by
  rw [val_main_v39_apply, val_main_v38_apply]
  exact (congrArg (val_main_v29 (F := Ideal) ei) (funext fun a => by match a with | ⟨0, _⟩ => rfl)).trans (v29_apply ei p)

theorem v41_apply (k : S100000x256.Idx) : val_main_v41 (F := Ideal) k = zeroF := by
  rw [val_main_v41_apply, val_main_cst_8_apply]; rfl

theorem v42_apply (ei : IVec S2x800000 32) (p : Fin 900000) :
    val_main_v42 (F := Ideal) ei (ix2 p (0 : Fin 1)) = dstW ei p := by
  rw [val_main_v42_apply]
  exact (congrArg (val_main_v6 (F := Ideal) ei) (funext fun a => by match a with | ⟨0, _⟩ => rfl)).trans (v6_apply ei p)

/-- A bias broadcast over the rows. -/
theorem v45_apply (b : FVec Ideal S256 .f32) (i : Fin 100000) (j : Fin 256) :
    val_main_v45 (F := Ideal) b (ix2 i j) = b (ix1 j) := by
  rw [val_main_v45_apply, val_main_v44_apply]
  exact congrArg b (funext fun a => by match a with | ⟨0, _⟩ => rfl)

theorem v43_apply (X : FVec Ideal S100000x128 .f32) (ei : IVec S2x800000 32) (W1 : FVec Ideal S128x256 .f32)
    (i : Fin 100000) (j : Fin 256) :
    val_main_v43 (F := Ideal) X ei W1 (ix2 i j)
      = zeroF + ((∑ e ∈ into ei i, val_main_v30 (F := Ideal) X W1 (ix2 (srcRow ei e) j) * (dinv ei (srcRow ei e) * dinv ei i))
          + val_main_v30 (F := Ideal) X W1 (ix2 i j) * (dinv ei i * dinv ei i)) := by
  unfold val_main_v43 val_main_v40 val_main_v37
  exact layer_read ei (val_main_v30 (F := Ideal) X W1) (val_main_v41 (F := Ideal)) (val_main_v42 (F := Ideal) ei)
    (val_main_v36 (F := Ideal) ei) (val_main_v39 (F := Ideal) ei) v41_apply (v42_apply ei) (v36_apply ei) (v39_apply ei) i j

/-- The first linear map. -/
theorem v30_apply (X : FVec Ideal S100000x128 .f32) (W1 : FVec Ideal S128x256 .f32) (i : Fin 100000) (j : Fin 256) :
    val_main_v30 (F := Ideal) X W1 (ix2 i j) = mm (fun i k => X (ix2 i k)) (fun k j => W1 (ix2 k j)) i j := by
  rw [val_main_v30_apply]
  unfold mm
  refine Finset.sum_congr rfl fun k _ => ?_
  have e1 : lidx_main_v30 (ix2 i j) k = ix2 i k := (funext fun a => by match a with | ⟨0, _⟩ => rfl | ⟨1, _⟩ => rfl)
  have e2 : ridx_main_v30 (ix2 i j) k = ix2 k j := (funext fun a => by match a with | ⟨0, _⟩ => rfl | ⟨1, _⟩ => rfl)
  rw [e1, e2]

/-- The first layer before the rectifier. -/
theorem v46_apply (X : FVec Ideal S100000x128 .f32) (ei : IVec S2x800000 32) (W1 : FVec Ideal S128x256 .f32)
    (b1 : FVec Ideal S256 .f32) (i : Fin 100000) (j : Fin 256) :
    val_main_v46 (F := Ideal) X ei W1 b1 (ix2 i j)
      = layerRef ei (mm (fun i k => X (ix2 i k)) (fun k j => W1 (ix2 k j))) (fun j => b1 (ix1 j)) i j := by
  rw [val_main_v46_apply, Ideal.addf_def, v43_apply, v45_apply, v30_apply]
  simp only [v30_apply]
  rfl

/-- The first layer's output after the rectifier. -/
theorem v47_apply (X : FVec Ideal S100000x128 .f32) (ei : IVec S2x800000 32) (W1 : FVec Ideal S128x256 .f32)
    (b1 : FVec Ideal S256 .f32) (hX : ∀ i, IsReal (X i)) (hW1 : ∀ i, IsReal (W1 i)) (i : Fin 100000) (j : Fin 256) :
    val_main_v47 (F := Ideal) X ei W1 b1 (ix2 i j)
      = hidden ei (fun i k => X (ix2 i k)) (fun k j => W1 (ix2 k j)) (fun j => b1 (ix1 j)) i j := by
  rw [val_main_v47_apply, Ideal.maximumf_def, v46_apply, val_main_call1_v0_apply, val_main_call1_cst_apply,
    Ideal.ofBits_def,
    layerRef_eq_layer ei _ _ (mm_real _ _ (fun i k => hX (ix2 i k)) (fun k j => hW1 (ix2 k j))) i j]
  rfl

/-! ### The second layer -/

theorem v53_apply (ei : IVec S2x800000 32) (p : Fin 900000) :
    val_main_v53 (F := Ideal) ei (ix1 p) = wrap (srcW ei p) := by
  rw [val_main_v53_apply, val_main_v50_apply, val_main_v52_apply, v3_apply, val_main_v49_apply, val_main_c_9_apply,
    val_main_v51_apply, val_main_c_10_apply]
  rfl

theorem v54_apply (ei : IVec S2x800000 32) (p : Fin 900000) :
    val_main_v54 (F := Ideal) ei (ix2 p (0 : Fin 1)) = wrap (srcW ei p) := by
  rw [val_main_v54_apply]
  exact (congrArg (val_main_v53 (F := Ideal) ei) (funext fun a => by match a with | ⟨0, _⟩ => rfl)).trans (v53_apply ei p)

theorem v57_apply (ei : IVec S2x800000 32) (p : Fin 900000) (j : Fin 256) :
    val_main_v57 (F := Ideal) ei (ix2 p j)
      = dinv ei (row (wrap (srcW ei p))) * dinv ei (row (wrap (dstW ei p))) := by
  rw [val_main_v57_apply, val_main_v56_apply]
  exact (congrArg (val_main_v29 (F := Ideal) ei) (funext fun a => by match a with | ⟨0, _⟩ => rfl)).trans (v29_apply ei p)

theorem v59_apply (k : S100000x256.Idx) : val_main_v59 (F := Ideal) k = zeroF := by
  rw [val_main_v59_apply, val_main_cst_11_apply]; rfl

theorem v60_apply (ei : IVec S2x800000 32) (p : Fin 900000) :
    val_main_v60 (F := Ideal) ei (ix2 p (0 : Fin 1)) = dstW ei p := by
  rw [val_main_v60_apply]
  exact (congrArg (val_main_v6 (F := Ideal) ei) (funext fun a => by match a with | ⟨0, _⟩ => rfl)).trans (v6_apply ei p)

theorem v63_apply (b : FVec Ideal S256 .f32) (i : Fin 100000) (j : Fin 256) :
    val_main_v63 (F := Ideal) b (ix2 i j) = b (ix1 j) := by
  rw [val_main_v63_apply, val_main_v62_apply]
  exact congrArg b (funext fun a => by match a with | ⟨0, _⟩ => rfl)

/-- The second linear map, of the rectified first layer. -/
theorem v48_apply (X : FVec Ideal S100000x128 .f32) (ei : IVec S2x800000 32) (W1 : FVec Ideal S128x256 .f32)
    (b1 : FVec Ideal S256 .f32) (W2 : FVec Ideal S256x256 .f32) (hX : ∀ i, IsReal (X i)) (hW1 : ∀ i, IsReal (W1 i))
    (i : Fin 100000) (j : Fin 256) :
    val_main_v48 (F := Ideal) X ei W1 b1 W2 (ix2 i j)
      = mm (hidden ei (fun i k => X (ix2 i k)) (fun k j => W1 (ix2 k j)) (fun j => b1 (ix1 j)))
          (fun k j => W2 (ix2 k j)) i j := by
  rw [val_main_v48_apply]
  unfold mm
  refine Finset.sum_congr rfl fun k _ => ?_
  have e1 : lidx_main_v48 (ix2 i j) k = ix2 i k := (funext fun a => by match a with | ⟨0, _⟩ => rfl | ⟨1, _⟩ => rfl)
  have e2 : ridx_main_v48 (ix2 i j) k = ix2 k j := (funext fun a => by match a with | ⟨0, _⟩ => rfl | ⟨1, _⟩ => rfl)
  rw [e1, e2, v47_apply X ei W1 b1 hX hW1 i k]

theorem v61_apply (X : FVec Ideal S100000x128 .f32) (ei : IVec S2x800000 32) (W1 : FVec Ideal S128x256 .f32)
    (b1 : FVec Ideal S256 .f32) (W2 : FVec Ideal S256x256 .f32) (i : Fin 100000) (j : Fin 256) :
    val_main_v61 (F := Ideal) X ei W1 b1 W2 (ix2 i j)
      = zeroF + ((∑ e ∈ into ei i, val_main_v48 (F := Ideal) X ei W1 b1 W2 (ix2 (srcRow ei e) j) * (dinv ei (srcRow ei e) * dinv ei i))
          + val_main_v48 (F := Ideal) X ei W1 b1 W2 (ix2 i j) * (dinv ei i * dinv ei i)) := by
  unfold val_main_v61 val_main_v58 val_main_v55
  exact layer_read ei (val_main_v48 (F := Ideal) X ei W1 b1 W2) (val_main_v59 (F := Ideal)) (val_main_v60 (F := Ideal) ei)
    (val_main_v54 (F := Ideal) ei) (val_main_v57 (F := Ideal) ei) v59_apply (v60_apply ei) (v54_apply ei) (v57_apply ei) i j

/-- The reference's result, element `(i, j)`. -/
theorem v64_apply (X : FVec Ideal S100000x128 .f32) (ei : IVec S2x800000 32) (W1 : FVec Ideal S128x256 .f32)
    (b1 : FVec Ideal S256 .f32) (W2 : FVec Ideal S256x256 .f32) (b2 : FVec Ideal S256 .f32)
    (hX : ∀ i, IsReal (X i)) (hW1 : ∀ i, IsReal (W1 i)) (hb1 : ∀ i, IsReal (b1 i)) (hW2 : ∀ i, IsReal (W2 i))
    (i : Fin 100000) (j : Fin 256) :
    val_main_v64 (F := Ideal) X ei W1 b1 W2 b2 (ix2 i j)
      = out ei (fun i k => X (ix2 i k)) (fun k j => W1 (ix2 k j)) (fun j => b1 (ix1 j))
          (fun k j => W2 (ix2 k j)) (fun j => b2 (ix1 j)) i j := by
  have hlin : ∀ i j, val_main_v48 (F := Ideal) X ei W1 b1 W2 (ix2 i j)
      = mm (hidden ei (fun i k => X (ix2 i k)) (fun k j => W1 (ix2 k j)) (fun j => b1 (ix1 j)))
          (fun k j => W2 (ix2 k j)) i j := v48_apply X ei W1 b1 W2 hX hW1
  have hreal : ∀ i j, IsReal (mm (hidden ei (fun i k => X (ix2 i k)) (fun k j => W1 (ix2 k j)) (fun j => b1 (ix1 j)))
      (fun k j => W2 (ix2 k j)) i j) :=
    mm_real _ _ (hidden_real ei _ _ _ (fun i k => hX (ix2 i k)) (fun k j => hW1 (ix2 k j)) (fun j => hb1 (ix1 j)))
      (fun k j => hW2 (ix2 k j))
  rw [val_main_v64_apply, Ideal.addf_def, v61_apply, v63_apply]
  simp only [hlin]
  exact layerRef_eq_layer ei _ (fun j => b2 (ix1 j)) hreal i j

theorem ref_is_G (X : FVec Ideal S100000x128 .f32) (ei : IVec S2x800000 32) (W1 : FVec Ideal S128x256 .f32)
    (b1 : FVec Ideal S256 .f32) (W2 : FVec Ideal S256x256 .f32) (b2 : FVec Ideal S256 .f32)
    (hX : ∀ i, IsReal (X i)) (hW1 : ∀ i, IsReal (W1 i)) (hb1 : ∀ i, IsReal (b1 i)) (hW2 : ∀ i, IsReal (W2 i))
    (hb2 : ∀ i, IsReal (b2 i)) :
    Cert.ReferenceIdeal.ReadP.val_main_v64 (F := Ideal) X ei W1 b1 W2 b2 = G X ei W1 b1 W2 b2 := by
  funext idx
  obtain ⟨i, j, rfl⟩ : ∃ (i : Fin 100000) (j : Fin 256), idx = ix2 i j := ⟨idx 0, idx 1, eq_ix2 idx⟩
  exact v64_apply X ei W1 b1 W2 b2 hX hW1 hb1 hW2 i j

end Cert.Gcn.RefSide

end
-- ==== Proof.FiniteInputs.lean ====
/-
  What the precondition says, element by element: each float argument array holds real numbers. The precondition is
  the conjunction, over the five float arguments, of "every |element| is below +infinity"; an extended real whose
  absolute value is below +infinity is a real number.
-/
import proofs.«103662_j74191265071481_2_alg».proof.Pre_finite_inputs
import proofs.«103662_j74191265071481_2_alg».proof.Proof.GcnSpec
import Idealize.ShloMosaic.PureOps.Ideal
import Idealize.ShloMosaic.Lib.ReduceAll
import Idealize.ShloMosaic.Lib.ValueIdx

noncomputable section

namespace Cert.Gcn

open Idealize.ShloMosaic Idealize.ShloMosaic.ValueIdx

/-- The word `0x7F800000` is +infinity. -/
theorem inf_bits : Ideal.ofBits .f32 0x7F800000#32 = (⊤ : EReal) := by
  simp [Ideal.ofBits, Ideal.ieee]

/-- A one-bit word made from a Boolean is 1 exactly when the Boolean is true. -/
theorem ofBool_eq_one_iff {b : Bool} : BitVec.ofBool b = 1#1 ↔ b = true := by cases b <;> decide

/-- An extended real whose absolute value `max x (-x)` is below +infinity is a real number: the absolute value of
    either infinity is +infinity. -/
theorem isReal_of_abs_lt (x : EReal)
    (h : Ideal.cmp .olt (max x (-x)) (Ideal.ofBits .f32 0x7F800000#32) = 1#1) : IsReal x := by
  rw [inf_bits] at h
  have hlt : max x (-x) < ⊤ := by
    simpa [Ideal.cmp, ofBool_eq_one_iff] using h
  induction x using EReal.rec with
  | bot => simp at hlt
  | top => simp at hlt
  | coe r => exact (⟨r, rfl⟩ : ∃ r' : ℝ, (r : EReal) = (r' : EReal))

theorem finite_of_pre [Cert.Pre_finite_inputs.Facts]
    (X : FVec Ideal Cert.Pre_finite_inputs.S100000x128 .f32) (ei : IVec Cert.Pre_finite_inputs.S2x800000 32)
    (W1 : FVec Ideal Cert.Pre_finite_inputs.S128x256 .f32) (b1 : FVec Ideal Cert.Pre_finite_inputs.S256 .f32)
    (W2 : FVec Ideal Cert.Pre_finite_inputs.S256x256 .f32) (b2 : FVec Ideal Cert.Pre_finite_inputs.S256 .f32)
    (h : Cert.Pre_finite_inputs.fn (F := Ideal) X ei W1 b1 W2 b2 = fun _ => 1#1) :
    (∀ i, IsReal (X i)) ∧ (∀ i, IsReal (W1 i)) ∧ (∀ i, IsReal (b1 i)) ∧ (∀ i, IsReal (W2 i)) ∧ (∀ i, IsReal (b2 i)) := by
  -- the scalar shape has one index
  haveI : Subsingleton Cert.Pre_finite_inputs.S_.Idx := ⟨fun a b => funext fun d => d.elim0⟩
  -- the precondition at its one index, as the conjunction of the five all-reductions
  have h0 := congrFun h ValueIdx.ix0
  dsimp only [Cert.Pre_finite_inputs.fn, Cert.Pre_finite_inputs.fn_part1] at h0
  obtain ⟨h18, h22⟩ := IntOp.andi_eq_one.1 h0
  obtain ⟨h13, h17⟩ := IntOp.andi_eq_one.1 h18
  obtain ⟨h8, h12⟩ := IntOp.andi_eq_one.1 h13
  obtain ⟨h3, h7⟩ := IntOp.andi_eq_one.1 h8
  -- an all-reduction that is 1 had a 1 at every index: there |element| < +infinity
  refine ⟨fun i => ?_, fun i => ?_, fun i => ?_, fun i => ?_, fun i => ?_⟩
  · exact isReal_of_abs_lt (X i) (Host.reduce_andi_all _ _ _ _ _ h3 i)
  · exact isReal_of_abs_lt (W1 i) (Host.reduce_andi_all _ _ _ _ _ h7 i)
  · exact isReal_of_abs_lt (b1 i) (Host.reduce_andi_all _ _ _ _ _ h12 i)
  · exact isReal_of_abs_lt (W2 i) (Host.reduce_andi_all _ _ _ _ _ h17 i)
  · exact isReal_of_abs_lt (b2 i) (Host.reduce_andi_all _ _ _ _ _ h22 i)

end Cert.Gcn

end
-- ==== Proof.lean ====
/-
  A two-layer graph convolution on 100000 nodes and 800000 edges: a kernel that scales by the inverse square root of
  the degree per NODE, around an 800000-edge gather and scatter, and adds each node's self loop in closed form, against
  a reference that appends the 100000 self loops to the edge list and scales per PAIR inside a 900000-pair scatter.

  Both end with `Cert.Gcn.G` of the argument arrays (Proof/GcnSpec.lean), element by element over the extended reals:
    • the idealized kernel: its run, boundary by boundary (Proof/KRun.lean, Proof/KChain.lean), each pallas_call's
      output arrays as whole-array functions (Proof/KRegion0.lean, Proof/KRegion1.lean, over Proof/KPay.lean), its host
      operations read at an index (Proof/KHostVals.lean), composed in Proof/KValue.lean — `G` is written in the
      kernel's arrangement, so no algebra is used on this side;
    • the idealized reference: its run, read one operation at a time (Proof/RefRunP.lean, Proof/RefReadP.lean), and the
      index-by-index comparison with `G` (Proof/RefIsG.lean). Here the two arrangements of a layer meet: the sum over
      the pairs landing on a node is the sum over the edges landing on it plus its own self-loop pair, and
      `Σ_e h(src e) · (dinv(src e) · dinv i) + h i · (dinv i · dinv i)  =  dinv i · Σ_e h(src e) · dinv(src e) + (dinv i · dinv i) · h i`
      (Proof/GcnLaw.lean) — distributivity, which holds because every value is a real number: the inputs by the
      precondition (Proof/FiniteInputs.lean), a degree because it is a count plus one, and so on through both layers.
  A scatter drops an edge whose destination is no node and a gather clamps any source word, identically in both
  programs (Proof/LibScatterRows.lean, Proof/LibGatherRows.lean), so nothing is asked of the integer edge list.
  The ideal pass rewrote nothing, so `preserves` is `True`; the two kernels' frames are the generated ones.
-/
import proofs.«103662_j74191265071481_2_alg».proof.Defs
import proofs.«103662_j74191265071481_2_alg».proof.Proof.Gen.Kernel
import proofs.«103662_j74191265071481_2_alg».proof.Proof.Gen.Kernel.Skeleton
import proofs.«103662_j74191265071481_2_alg».proof.Proof.Gen.Kernel.Launch
import proofs.«103662_j74191265071481_2_alg».proof.Proof.Gen.Kernel.Points
import proofs.«103662_j74191265071481_2_alg».proof.Proof.Gen.Kernel.Frame
import proofs.«103662_j74191265071481_2_alg».proof.Proof.Gen.KernelIdeal
import proofs.«103662_j74191265071481_2_alg».proof.Proof.Gen.KernelIdeal.Skeleton
import proofs.«103662_j74191265071481_2_alg».proof.Proof.Gen.KernelIdeal.Launch
import proofs.«103662_j74191265071481_2_alg».proof.Proof.Gen.KernelIdeal.Points
import proofs.«103662_j74191265071481_2_alg».proof.Proof.Gen.KernelIdeal.Frame
import proofs.«103662_j74191265071481_2_alg».proof.Proof.Gen.ReferenceIdeal
import proofs.«103662_j74191265071481_2_alg».proof.Proof.Gen.Pre_finite_inputs
import proofs.«103662_j74191265071481_2_alg».proof.Proof.RefRunP
import proofs.«103662_j74191265071481_2_alg».proof.Proof.RefReadP
import proofs.«103662_j74191265071481_2_alg».proof.Proof.KRun
import proofs.«103662_j74191265071481_2_alg».proof.Proof.KChain
import proofs.«103662_j74191265071481_2_alg».proof.Proof.RefIsG
import proofs.«103662_j74191265071481_2_alg».proof.Proof.FiniteInputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments, of which the precondition holds, both programs end with `G` of the
    arguments: the kernel by its run read boundary by boundary, the reference by its run read operation by operation,
    the float arguments real by the precondition. -/
theorem algebraic : Cert.algebraic_KernelIdeal_ReferenceIdeal := by
  intro m ρ m' ρ' hpre hagree
  refine ⟨fun c => Cert.Gcn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Val.W7_v46 m ρ c), (h c).2⟩)
      (Cert.KernelIdeal.Val.run_W7 (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v64_eq]
    obtain ⟨h0, h1, h2, h3, h4, h5⟩ := hagree c
    rw [h0, h1, h2, h3, h4, h5]
    obtain ⟨fX, fW1, fb1, fW2, fb2⟩ := Cert.Gcn.finite_of_pre _ _ _ _ _ _ (hpre c)
    exact Cert.Gcn.RefSide.ref_is_G _ _ _ _ _ _ fX fW1 fb1 fW2 fb2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
